-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x1024 : Shape := ⟨3, ![256, 512, 1024]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S256x512x1024 : S_.BroadcastsInDim S256x512x1024 (![] : Fin 0 → Fin S256x512x1024.rank)
  reducesTo_S256x512x1024_S_d0_1_2 : S256x512x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S256x512x1024 .f32) (main_arg1 : FVec F S256x1024 .f32) (main_arg2 : FVec F S1024x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S256x512x1024 .f32 := Host.absf main_arg0
  let main_cst : FVec F S_ .f32 := constant S_ .f32 0x7F800000#32
  let main_v1 : FVec F S256x512x1024 .f32 := broadcastInDim S256x512x1024 ![] bcast_S_S256x512x1024 main_cst
  let main_v2 : IVec S256x512x1024 1 := cmpf .olt main_v0 main_v1
  let main_c : IVec S_ 1 := constantI S_ 1 1#1
  let main_v3 : IVec S_ 1 := (fun x v => Host.reduce IntOp.andi x v reducesTo_S256x512x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S256x512x1024 : Shape := ⟨3, ![256, 512, 1024]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S1x1 : Shape := ⟨2, ![1, 1]⟩
abbrev S256x1x1024 : Shape := ⟨3, ![256, 1, 1024]⟩
abbrev S256x1x512 : Shape := ⟨3, ![256, 1, 512]⟩
abbrev S4x512x1024 : Shape := ⟨3, ![4, 512, 1024]⟩
abbrev S4x1x1024 : Shape := ⟨3, ![4, 1, 1024]⟩
abbrev S4x1x512 : Shape := ⟨3, ![4, 1, 512]⟩
abbrev S1x512x1024 : Shape := ⟨3, ![1, 512, 1024]⟩
abbrev S512x1024 : Shape := ⟨2, ![512, 1024]⟩
abbrev S1x1x1024 : Shape := ⟨3, ![1, 1, 1024]⟩
abbrev S512x1 : Shape := ⟨2, ![512, 1]⟩
abbrev S1x512 : Shape := ⟨2, ![1, 512]⟩
abbrev S1x1x512 : Shape := ⟨3, ![1, 1, 512]⟩
abbrev S256x512x1 : Shape := ⟨3, ![256, 512, 1]⟩

abbrev nBuf : Space → Nat
  | .hbm => 21
  | .vmem => 12
  | .smem => 0
  | _ => 0

abbrev bufTy : (tb : Table) → Fin (tcTables nBuf tb) → BufTy
  | .hbm, ⟨0, _⟩ => ⟨S256x512x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S1024x1024, .bf16⟩
  | .hbm, ⟨9, _⟩ => ⟨S1024x1, .bf16⟩
  | .hbm, ⟨10, _⟩ => ⟨S1x1024, .f32⟩
  | .hbm, ⟨11, _⟩ => ⟨S1x1, .f32⟩
  | .hbm, ⟨12, _⟩ => ⟨S256x1024, .f32⟩
  | .hbm, ⟨13, _⟩ => ⟨S1x1024, .f32⟩
  | .hbm, ⟨14, _⟩ => ⟨S256x1024, .f32⟩
  | .hbm, ⟨15, _⟩ => ⟨S256x1024, .f32⟩
  | .hbm, ⟨16, _⟩ => ⟨S256x1x1024, .f32⟩
  | .hbm, ⟨17, _⟩ => ⟨S256x1x1024, .f32⟩
  | .hbm, ⟨18, _⟩ => ⟨S256x1x512, .f32⟩
  | .hbm, ⟨19, _⟩ => ⟨S256x1024, .f32⟩
  | .hbm, ⟨20, _⟩ => ⟨S256x512x1, .f32⟩
  | .local _ .vmem, ⟨0, _⟩ => ⟨S4x512x1024, .f32⟩
  | .local _ .vmem, ⟨1, _⟩ => ⟨S4x512x1024, .f32⟩
  | .local _ .vmem, ⟨2, _⟩ => ⟨S1024x1024, .bf16⟩
  | .local _ .vmem, ⟨3, _⟩ => ⟨S1x1024, .f32⟩
  | .local _ .vmem, ⟨4, _⟩ => ⟨S4x1x1024, .f32⟩
  | .local _ .vmem, ⟨5, _⟩ => ⟨S4x1x1024, .f32⟩
  | .local _ .vmem, ⟨6, _⟩ => ⟨S1024x1, .bf16⟩
  | .local _ .vmem, ⟨7, _⟩ => ⟨S1x1, .f32⟩
  | .local _ .vmem, ⟨8, _⟩ => ⟨S4x1x1024, .f32⟩
  | .local _ .vmem, ⟨9, _⟩ => ⟨S4x1x1024, .f32⟩
  | .local _ .vmem, ⟨10, _⟩ => ⟨S4x1x512, .f32⟩
  | .local _ .vmem, ⟨11, _⟩ => ⟨S4x1x512, .f32⟩
  | _, _ => ⟨S256x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v9 : Index := Scalar.indexCast arg9
  let c0_8 : Index := 0#32
  let c0_9 : Index := 0#32
  ![v9.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v16 : Index := Scalar.indexCast arg9
  let c0_10 : Index := 0#32
  let c0_11 : Index := 0#32
  ![v16.toNat, 0, 0]
def k0_off3 (k0_t1 : Fin k0_t1_loop.trips) : Fin 3 → Nat :=
  let c0_i32 : BitVec 32 := 0#32
  let c1_i32 : BitVec 32 := 1#32
  let arg9 : BitVec 32 := Scf.iv c0_i32 c1_i32 k0_t1
  let v36 : Index := Scalar.indexCast arg9
  let c0_15 : Index := 0#32
  let c0_16 : Index := 0#32
  ![v36.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S1024_S1x1024 : S1024.ShapeCasts S1x1024
  shapeCasts_S1_S1x1 : S1.ShapeCasts S1x1
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  shapeCasts_S256x1024_S256x1x1024 : S256x1024.ShapeCasts S256x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1x512x1024 : 0 < S1x512x1024.numel
  shapeCasts_S1x512x1024_S512x1024 : S1x512x1024.ShapeCasts S512x1024
  broadcasts_S1x1024_S512x1024 : S1x1024.Broadcasts S512x1024
  h_S1x1x1024 : 0 < S1x1x1024.numel
  shapeCasts_S1x1x1024_S1x1024 : S1x1x1024.ShapeCasts S1x1024
  broadcasts_S1x1_S512x1 : S1x1.Broadcasts S512x1
  reduces_S512x1_S1 : S512x1.Reduces [0] S1
  transposes_S512x1_p1_0_S1x512 : S512x1.Transposes [1, 0] S1x512
  h_S1x1x512 : 0 < S1x1x512.numel
  shapeCasts_S1x1x512_S1x512 : S1x1x512.ShapeCasts S1x512
  shapeCasts_S1x512_S1x1x512 : S1x512.ShapeCasts S1x1x512
  shapeCasts_S1x1024_S1x1x1024 : S1x1024.ShapeCasts S1x1x1024
  shapeCasts_S256x1x1024_S256x1024 : S256x1x1024.ShapeCasts S256x1024
  transposes_S256x1x512_S256x512x1_0_2_1 : S256x1x512.Transposes [0, 2, 1] S256x512x1
  dot_S256x1024_S1024x1024_S256x1024_1_0_0_1_n_n_wf : DotDims.WF S256x1024 S1024x1024 S256x1024 [1] [0] [0] [1] [] []
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  dot_S1x512_S512x1024_S1x1024_1_0_0_1_n_n_wf : DotDims.WF S1x512 S512x1024 S1x1024 [1] [0] [0] [1] [] []
  hrank0 : 0 < grid0.rank
  k0_t1_ok : k0_t1_loop.OK
  k0_off1_inb : ∀ k0_t1 : Fin k0_t1_loop.trips, ∀ a, (k0_off1 k0_t1) a + S1x512x1024.size a ≤ S4x512x1024.size a
  k0_off2_inb : ∀ k0_t1 : Fin k0_t1_loop.trips, ∀ a, (k0_off2 k0_t1) a + S1x1x1024.size a ≤ S4x1x1024.size a
  k0_off3_inb : ∀ k0_t1 : Fin k0_t1_loop.trips, ∀ a, (k0_off3 k0_t1) a + S1x1x512.size a ≤ S4x1x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S256x512x1024.size a
  hwx0_0 : ∀ i : grid0.Coords, EltTy.bits .f32 = 32 ∨ (Rect.block (s := S256x512x1024) S4x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1024.size a ≤ S256x1x1024.size a
  hwx0_3 : ∀ i : grid0.Coords, EltTy.bits .f32 = 32 ∨ (Rect.block (s := S256x1x1024) S4x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .bf16 = 32 ∨ (Rect.block (s := S1024x1) S1024x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x1024.size a ≤ S256x1x1024.size a
  hwx0_6 : ∀ i : grid0.Coords, EltTy.bits .f32 = 32 ∨ (Rect.block (s := S256x1x1024) S4x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x1x512.size a ≤ S256x1x512.size a
  hwx0_7 : ∀ i : grid0.Coords, EltTy.bits .f32 = 32 ∨ (Rect.block (s := S256x1x512) S4x1x512.size (cc0_transform_7 i) (hinb0_7 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S4x1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S4x1x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x512x1024 : Shape := ⟨3, ![256, 512, 1024]⟩
abbrev S256x1024 : Shape := ⟨2, ![256, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S1x1024 : Shape := ⟨2, ![1, 1024]⟩
abbrev S256x1x1024 : Shape := ⟨3, ![256, 1, 1024]⟩
abbrev S256x512x1 : Shape := ⟨3, ![256, 512, 1]⟩
abbrev S1x1x1 : Shape := ⟨3, ![1, 1, 1]⟩
abbrev S_ : Shape := ⟨0, ![]⟩
abbrev S256x1 : Shape := ⟨2, ![256, 1]⟩
abbrev S256x1x1 : Shape := ⟨3, ![256, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S256x512x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S256x512x1024, .f32⟩
  | .hbm, ⟨9, _⟩ => ⟨S1x1x1024, .f32⟩
  | .hbm, ⟨10, _⟩ => ⟨S256x512x1024, .f32⟩
  | .hbm, ⟨11, _⟩ => ⟨S256x512x1024, .f32⟩
  | .hbm, ⟨12, _⟩ => ⟨S256x1024, .f32⟩
  | .hbm, ⟨13, _⟩ => ⟨S1x1024, .f32⟩
  | .hbm, ⟨14, _⟩ => ⟨S256x1024, .f32⟩
  | .hbm, ⟨15, _⟩ => ⟨S256x1024, .f32⟩
  | .hbm, ⟨16, _⟩ => ⟨S256x1x1024, .f32⟩
  | .hbm, ⟨17, _⟩ => ⟨S256x512x1024, .f32⟩
  | .hbm, ⟨18, _⟩ => ⟨S256x512x1024, .f32⟩
  | .hbm, ⟨19, _⟩ => ⟨S256x512x1024, .f32⟩
  | .hbm, ⟨20, _⟩ => ⟨S256x512x1, .f32⟩
  | .hbm, ⟨21, _⟩ => ⟨S1x1x1, .f32⟩
  | .hbm, ⟨22, _⟩ => ⟨S256x512x1, .f32⟩
  | .hbm, ⟨23, _⟩ => ⟨S256x512x1, .f32⟩
  | .hbm, ⟨24, _⟩ => ⟨S_, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1x1, .f32⟩
  | .hbm, ⟨30, _⟩ => ⟨S256x512x1, .f32⟩
  | .hbm, ⟨31, _⟩ => ⟨S256x512x1, .f32⟩
  | .hbm, ⟨32, _⟩ => ⟨S256x512x1, .f32⟩
  | .hbm, ⟨33, _⟩ => ⟨S_, .f32⟩
  | .hbm, ⟨34, _⟩ => ⟨S256x1, .f32⟩
  | .hbm, ⟨35, _⟩ => ⟨S256x1x1, .f32⟩
  | .hbm, ⟨36, _⟩ => ⟨S256x512x1, .f32⟩
  | .hbm, ⟨37, _⟩ => ⟨S256x512x1, .f32⟩
  | .hbm, ⟨38, _⟩ => ⟨S256x512x1024, .f32⟩
  | .hbm, ⟨39, _⟩ => ⟨S256x512x1024, .f32⟩
  | .hbm, ⟨40, _⟩ => ⟨S_, .f32⟩
  | .hbm, ⟨41, _⟩ => ⟨S256x1024, .f32⟩
  | _, _ => ⟨S256x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S256x512x1024_0_1_2 : S1x1x1024.BroadcastsInDim S256x512x1024 (![0, 1, 2] : Fin 3 → Fin S256x512x1024.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S256x1024_S256x1x1024_0_2 : S256x1024.BroadcastsInDim S256x1x1024 (![0, 2] : Fin 2 → Fin S256x1x1024.rank)
  bcast_S256x1x1024_S256x512x1024_0_1_2 : S256x1x1024.BroadcastsInDim S256x512x1024 (![0, 1, 2] : Fin 3 → Fin S256x512x1024.rank)
  bcast_S1_S1x1x1_2 : S1.BroadcastsInDim S1x1x1 (![2] : Fin 1 → Fin S1x1x1.rank)
  bcast_S1x1x1_S256x512x1_0_1_2 : S1x1x1.BroadcastsInDim S256x512x1 (![0, 1, 2] : Fin 3 → Fin S256x512x1.rank)
  reducesTo_S256x512x1_S256x1_d1 : S256x512x1.ReducesTo [1] S256x1
  h_S_ : 0 < S_.numel
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x512x1_0_1_2 : S256x1x1.BroadcastsInDim S256x512x1 (![0, 1, 2] : Fin 3 → Fin S256x512x1.rank)
  bcast_S256x512x1_S256x512x1024_0_1_2 : S256x512x1.BroadcastsInDim S256x512x1024 (![0, 1, 2] : Fin 3 → Fin S256x512x1024.rank)
  reducesTo_S256x512x1024_S256x1024_d1 : S256x512x1024.ReducesTo [1] S256x1024
  dot_S256x512x1024_S1024x1024_S256x512x1024_2_0_01_1_n_n_wf : DotDims.WF S256x512x1024 S1024x1024 S256x512x1024 [2] [0] [0, 1] [1] [] []
  dot_S256x1024_S1024x1024_S256x1024_1_0_0_1_n_n_wf : DotDims.WF S256x1024 S1024x1024 S256x1024 [1] [0] [0] [1] [] []
  dot_S256x512x1024_S1024x1_S256x512x1_2_0_01_1_n_n_wf : DotDims.WF S256x512x1024 S1024x1 S256x512x1 [2] [0] [0, 1] [1] [] []

variable [Facts₀]

def dot_S256x512x1024_S1024x1024_S256x512x1024_2_0_01_1_n_n : DotDims S256x512x1024 S1024x1024 S256x512x1024 where
  lhsContracting := [2]
  rhsContracting := [0]
  lhsNonContracting := [0, 1]
  rhsNonContracting := [1]
  lhsBatch := []
  rhsBatch := []
  wf := dot_S256x512x1024_S1024x1024_S256x512x1024_2_0_01_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x512x1024_S1024x1_S256x512x1_2_0_01_1_n_n : DotDims S256x512x1024 S1024x1 S256x512x1 where
  lhsContracting := [2]
  rhsContracting := [0]
  lhsNonContracting := [0, 1]
  rhsNonContracting := [1]
  lhsBatch := []
  rhsBatch := []
  wf := dot_S256x512x1024_S1024x1_S256x512x1_2_0_01_1_n_n_wf

class Facts : Prop extends Facts₀ where

variable [Facts]
-- ==== Proof.Spec.lean ====
/-
  Additive (Bahdanau) attention, one batch row at a time, over the extended reals.

  For one batch row with features X[s, e] (512 × 1024), the projection W1[e, u], its bias B1[u], the row's
  projected hidden state PH[u] (bias included), the scoring vector WV[u] and its bias BV:

    projFeat s u = (∑ e, X s e · W1 e u) + B1 u
    logit s      = (∑ u, tanh (projFeat s u + PH u) · WV u) + BV
    logitMax     = the maximum of the logits over s, starting from -∞
    expo s       = exp (logit s - logitMax)
    expSum       = ∑ s, expo s
    weight s     = expo s / expSum                       (the softmax over the sequence axis)
    context u    = ∑ s, weight s · projFeat s u          (the weights applied to the PROJECTED features)

  Both programs compute exactly these terms, with the same grouping of every sum and product, so nothing
  here needs the inputs to be finite. The array-level functions below read the per-row terms off whole
  argument arrays (batch row b), or off the four-row blocks a grid point stages (row j of the block).
-/
import Idealize.ShloMosaic.PureOps.Ideal
import Idealize.ShloMosaic.PureOps.Ideal.Laws
import Idealize.ShloMosaic.Lib.ValueIdx
import Mathlib.Data.Finset.Fold

noncomputable section

namespace Cert.AdditiveAttention

open Idealize.ShloMosaic Idealize.ShloMosaic.ValueIdx

/-- The value the f32 pattern of -∞ denotes: where both programs start the running maximum. -/
abbrev negInf : EReal := Ideal.ofBits .f32 0xFF800000#32

section Row

variable (X : Fin 512 → Fin 1024 → EReal) (W1 : Fin 1024 → Fin 1024 → EReal) (B1 : Fin 1024 → EReal)
  (PH : Fin 1024 → EReal) (WV : Fin 1024 → EReal) (BV : EReal)

/-- The projected features of one row: X · W1 + B1. -/
def projFeat (s : Fin 512) (u : Fin 1024) : EReal := (∑ e : Fin 1024, X s e * W1 e u) + B1 u

/-- The attention logit of sequence position s: tanh (projFeat + PH) · WV + BV. -/
def logit (s : Fin 512) : EReal := (∑ u : Fin 1024, Ideal.tanh (projFeat X W1 B1 s u + PH u) * WV u) + BV

/-- The largest logit of the row (a fold of max from -∞, in any order). -/
def logitMax : EReal := (Finset.univ : Finset (Fin 512)).fold max negInf (logit X W1 B1 PH WV BV)

/-- exp (logit - max). -/
def expo (s : Fin 512) : EReal := Ideal.exp (logit X W1 B1 PH WV BV s - logitMax X W1 B1 PH WV BV)

/-- The softmax denominator. -/
def expSum : EReal := ∑ s : Fin 512, expo X W1 B1 PH WV BV s

/-- The attention weight of position s. -/
def weight (s : Fin 512) : EReal := Ideal.div (expo X W1 B1 PH WV BV s) (expSum X W1 B1 PH WV BV)

/-- The context vector: the weights applied to the projected features. -/
def context (u : Fin 1024) : EReal := ∑ s : Fin 512, weight X W1 B1 PH WV BV s * projFeat X W1 B1 s u

end Row

section Arrays

variable (a0 : (⟨3, ![256, 512, 1024]⟩ : Shape).Idx → EReal) (a2 : (⟨2, ![1024, 1024]⟩ : Shape).Idx → EReal)
  (a3 : (⟨1, ![1024]⟩ : Shape).Idx → EReal) (ph : (⟨2, ![256, 1024]⟩ : Shape).Idx → EReal)
  (a6 : (⟨2, ![1024, 1]⟩ : Shape).Idx → EReal) (a7 : (⟨1, ![1]⟩ : Shape).Idx → EReal)

/-- Batch row b's attention weights, off the whole arrays (ph is the projected hidden state, [256, 1024]). -/
def rowWeight (b : Fin 256) (s : Fin 512) : EReal :=
  weight (fun s e => a0 (ix3 b s e)) (fun e u => a2 (ix2 e u)) (fun u => a3 (ix1 u)) (fun u => ph (ix2 b u))
    (fun u => a6 (ix2 u (0 : Fin 1))) (a7 (ix1 (0 : Fin 1))) s

/-- Batch row b's context vector, off the whole arrays. -/
def rowContext (b : Fin 256) (u : Fin 1024) : EReal :=
  context (fun s e => a0 (ix3 b s e)) (fun e u => a2 (ix2 e u)) (fun u => a3 (ix1 u)) (fun u => ph (ix2 b u))
    (fun u => a6 (ix2 u (0 : Fin 1))) (a7 (ix1 (0 : Fin 1))) u

end Arrays

section Block

variable (x0 : (⟨3, ![4, 512, 1024]⟩ : Shape).Idx → EReal) (x1 : (⟨2, ![1024, 1024]⟩ : Shape).Idx → EReal)
  (x2 : (⟨2, ![1, 1024]⟩ : Shape).Idx → EReal) (x3 : (⟨3, ![4, 1, 1024]⟩ : Shape).Idx → EReal)
  (x4 : (⟨2, ![1024, 1]⟩ : Shape).Idx → EReal) (x5 : (⟨2, ![1, 1]⟩ : Shape).Idx → EReal)

/-- Row j of a staged four-row block: its attention weights, off the blocks a grid point holds. -/
def blockWeight (j : Fin 4) (s : Fin 512) : EReal :=
  weight (fun s e => x0 (ix3 j s e)) (fun e u => x1 (ix2 e u)) (fun u => x2 (ix2 (0 : Fin 1) u))
    (fun u => x3 (ix3 j (0 : Fin 1) u)) (fun u => x4 (ix2 u (0 : Fin 1))) (x5 (ix2 (0 : Fin 1) (0 : Fin 1))) s

/-- Row j of a staged four-row block: its context vector. -/
def blockContext (j : Fin 4) (u : Fin 1024) : EReal :=
  context (fun s e => x0 (ix3 j s e)) (fun e u => x1 (ix2 e u)) (fun u => x2 (ix2 (0 : Fin 1) u))
    (fun u => x3 (ix3 j (0 : Fin 1) u)) (fun u => x4 (ix2 u (0 : Fin 1))) (x5 (ix2 (0 : Fin 1) (0 : Fin 1))) u

end Block

/-- The running maximum is at least its start value, so taking the maximum with the start value again
    changes nothing (the reference does this once more after its reduction). -/
theorem max_start_fold {ι : Type*} (s : Finset ι) (c : EReal) (f : ι → EReal) :
    max c (s.fold max c f) = s.fold max c f :=
  max_eq_right ((Finset.le_fold_max c).mpr (Or.inl le_rfl))

end Cert.AdditiveAttention

end
-- ==== Proof.RefSide.lean ====
/-
  The reference program of additive (Bahdanau) attention, read one batch row at a time.

  Operation by operation the reference computes, for batch row b,

    projected features   P[s, u] = (∑ e, X[b, s, e] · W1[e, u]) + B1[u]
    logits               L[s]    = (∑ u, tanh (P[s, u] + PH[b, u]) · WV[u]) + BV
    their maximum        M       = max (-∞, fold of max over s from -∞)
    exponentials         E[s]    = exp (L[s] - M)
    the denominator      Z       = 0 + ∑ s, E[s]
    the weights          A[s]    = E[s] / Z
    the context vector   C[u]    = 0 + ∑ s, A[s] · P[s, u]

  where PH is the projected hidden state, which is carried along as one unopened array. Each lemma below
  identifies one of these stages, at explicit coordinates, with the per-row term of the specification; the
  two theorems at the end say that the reference's two results are the row's softmax weights and the row's
  context vector. The only facts used beyond reading each operation at an index are: the maximum with the
  fold's own start value changes nothing, and 0 + x = x.
-/
import proofs.«171468_j33311766348358_2_alg».proof.Proof.Gen.ReferenceIdeal.Read
import proofs.«171468_j33311766348358_2_alg».proof.Proof.Spec
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.RefSide

open Cert.ReferenceIdeal Cert.ReferenceIdeal.Gen Cert.ReferenceIdeal.Read Cert.AdditiveAttention Idealize.ShloMosaic
  Idealize.ShloMosaic.ValueIdx

/-- The first matrix product plus its bias, at (b, s, u), is the row's projected feature at (s, u). -/
theorem projFeat_apply (x0 : (⟨S256x512x1024, .f32⟩ : BufTy).Contents (Elt Ideal))
    (x2 : (⟨S1024x1024, .f32⟩ : BufTy).Contents (Elt Ideal)) (x3 : (⟨S1024, .f32⟩ : BufTy).Contents (Elt Ideal))
    (b : Fin 256) (s : Fin 512) (u : Fin 1024) :
    val_main_v3 (F := Ideal) x0 x2 x3 (ix3 b s u)
      = projFeat (fun s e => x0 (ix3 b s e)) (fun e u => x2 (ix2 e u)) (fun u => x3 (ix1 u)) s u := by
  have el : ∀ k : Fin 1024, lidx_main_v0 (ix3 b s u) k = ix3 b s k := fun k =>
    funext fun a => Fin.ext (by match a with | ⟨0, _⟩ => rfl | ⟨1, _⟩ => rfl | ⟨2, _⟩ => rfl)
  have er : ∀ k : Fin 1024, ridx_main_v0 (ix3 b s u) k = ix2 k u := fun k =>
    funext fun a => Fin.ext (by match a with | ⟨0, _⟩ => rfl | ⟨1, _⟩ => rfl)
  have eb : idx_main_v1 (idx_main_v2 (ix3 b s u)) = ix1 u :=
    funext fun a => Fin.ext (by match a with | ⟨0, _⟩ => rfl)
  rw [val_main_v3_apply, val_main_v0_apply, val_main_v2_apply, val_main_v1_apply]
  simp only [el, er, eb, Ideal.addf_def, projFeat]

/-- The scoring product plus its bias, at (b, s, 0), is the row's logit at s: the tanh of the projected
    feature plus the projected hidden state, against the scoring vector. -/
theorem logit_apply (x0 : (⟨S256x512x1024, .f32⟩ : BufTy).Contents (Elt Ideal)) (x1 : (⟨S256x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal))
    (b : Fin 256) (s : Fin 512) :
    val_main_v15 (F := Ideal) x0 x1 x2 x3 x4 x5 x6 x7 (ix3 b s (0 : Fin 1))
      = logit (fun s e => x0 (ix3 b s e)) (fun e u => x2 (ix2 e u)) (fun u => x3 (ix1 u))
        (fun u => val_main_v7 (F := Ideal) x1 x4 x5 (ix2 b u)) (fun u => x6 (ix2 u (0 : Fin 1))) (x7 (ix1 (0 : Fin 1))) s := by
  have el : ∀ k : Fin 1024, lidx_main_v12 (ix3 b s (0 : Fin 1)) k = ix3 b s k := fun k =>
    funext fun a => Fin.ext (by match a with | ⟨0, _⟩ => rfl | ⟨1, _⟩ => rfl | ⟨2, _⟩ => rfl)
  have er : ∀ k : Fin 1024, ridx_main_v12 (ix3 b s (0 : Fin 1)) k = ix2 k (0 : Fin 1) := fun k =>
    funext fun a => Fin.ext (by match a with | ⟨0, _⟩ => rfl | ⟨1, _⟩ => rfl)
  have eh : ∀ k : Fin 1024, idx_main_v8 (idx_main_v9 (ix3 b s k)) = ix2 b k := fun k =>
    funext fun a => Fin.ext (by match a with | ⟨0, _⟩ => rfl | ⟨1, _⟩ => rfl)
  have e7 : idx_main_v13 (idx_main_v14 (ix3 b s (0 : Fin 1))) = ix1 (0 : Fin 1) :=
    funext fun a => Fin.ext (by match a with | ⟨0, _⟩ => rfl)
  rw [val_main_v15_apply, val_main_v12_apply, val_main_v14_apply, val_main_v13_apply]
  simp only [el, er, e7, val_main_v11_apply, val_main_v10_apply, val_main_v9_apply, val_main_v8_apply, eh,
    projFeat_apply, Ideal.addf_def, Ideal.hostUnary_tanh_def, logit]

/-- A maximum-reduction over the sequence axis of a [256, 512, 1] array from -∞, at (b, 0), is the fold of max
    from -∞ over the row's 512 entries. -/
theorem reduce_max_apply (y : S256x512x1.Idx → EReal) (b : Fin 256) :
    Host.reduce (FloatOps.maximumf (F := Ideal) (φ := .f32)) y (val_main_cst (F := Ideal))
        reducesTo_S256x512x1_S256x1_d1 h_S_ (ix2 b (0 : Fin 1))
      = (Finset.univ : Finset (Fin 512)).fold max negInf (fun s => y (ix3 b s (0 : Fin 1))) := by
  have h : S256x512x1.Reduces [1] S256x1 := by decide
  refine (Host.reduce_eq_fold_single _ y _ reducesTo_S256x512x1_S256x1_d1 h h_S_ (ix2 b (0 : Fin 1))).trans ?_
  show (Finset.univ : Finset (Fin 512)).fold max negInf (fun s => y (h.lift (ix2 b (0 : Fin 1)) s)) = _
  refine congrArg (fun f => (Finset.univ : Finset (Fin 512)).fold max negInf f) (funext fun s => congrArg y ?_)
  exact funext fun a => Fin.ext (by match a with | ⟨0, _⟩ => rfl | ⟨1, _⟩ => rfl | ⟨2, _⟩ => rfl)

/-- The reference's running maximum at (b, 0) — the reduction, then one more maximum with -∞ — is the row's
    largest logit. -/
theorem max_apply (x0 : (⟨S256x512x1024, .f32⟩ : BufTy).Contents (Elt Ideal)) (x1 : (⟨S256x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal))
    (b : Fin 256) :
    val_main_v18 (F := Ideal) x0 x1 x2 x3 x4 x5 x6 x7 (ix2 b (0 : Fin 1))
      = logitMax (fun s e => x0 (ix3 b s e)) (fun e u => x2 (ix2 e u)) (fun u => x3 (ix1 u))
        (fun u => val_main_v7 (F := Ideal) x1 x4 x5 (ix2 b u)) (fun u => x6 (ix2 u (0 : Fin 1))) (x7 (ix1 (0 : Fin 1))) := by
  rw [val_main_v18_apply, val_main_v17_apply, val_main_cst_0_apply]
  unfold val_main_v16
  rw [reduce_max_apply]
  simp only [Ideal.maximumf_def, Ideal.ofBits_def, logit_apply, logitMax]
  exact max_start_fold _ _ _

/-- The exponential stage at (b, s, 0) is exp (logit - max). -/
theorem expo_apply (x0 : (⟨S256x512x1024, .f32⟩ : BufTy).Contents (Elt Ideal)) (x1 : (⟨S256x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal))
    (b : Fin 256) (s : Fin 512) :
    val_main_v22 (F := Ideal) x0 x1 x2 x3 x4 x5 x6 x7 (ix3 b s (0 : Fin 1))
      = expo (fun s e => x0 (ix3 b s e)) (fun e u => x2 (ix2 e u)) (fun u => x3 (ix1 u))
        (fun u => val_main_v7 (F := Ideal) x1 x4 x5 (ix2 b u)) (fun u => x6 (ix2 u (0 : Fin 1))) (x7 (ix1 (0 : Fin 1))) s := by
  have e : idx_main_v19 (idx_main_v20 (ix3 b s (0 : Fin 1))) = ix2 b (0 : Fin 1) :=
    funext fun a => Fin.ext (by match a with | ⟨0, _⟩ => rfl | ⟨1, _⟩ => rfl)
  rw [val_main_v22_apply, val_main_v21_apply, val_main_v20_apply, val_main_v19_apply, e, logit_apply, max_apply]
  simp only [Ideal.subf_def, Ideal.hostUnary_exp_def, expo]

/-- The sum-reduction of the exponentials from 0, at (b, 0), is the row's softmax denominator. -/
theorem expSum_apply (x0 : (⟨S256x512x1024, .f32⟩ : BufTy).Contents (Elt Ideal)) (x1 : (⟨S256x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal))
    (b : Fin 256) :
    val_main_v23 (F := Ideal) x0 x1 x2 x3 x4 x5 x6 x7 (ix2 b (0 : Fin 1))
      = expSum (fun s e => x0 (ix3 b s e)) (fun e u => x2 (ix2 e u)) (fun u => x3 (ix1 u))
        (fun u => val_main_v7 (F := Ideal) x1 x4 x5 (ix2 b u)) (fun u => x6 (ix2 u (0 : Fin 1))) (x7 (ix1 (0 : Fin 1))) := by
  have e : ∀ k : Fin 512, idx_main_v23 (ix2 b (0 : Fin 1)) k = ix3 b k (0 : Fin 1) := fun k =>
    funext fun a => Fin.ext (by match a with | ⟨0, _⟩ => rfl | ⟨1, _⟩ => rfl | ⟨2, _⟩ => rfl)
  rw [val_main_v23_apply, val_main_cst_1_apply]
  simp only [e, expo_apply, Ideal.ofBits_def, Ideal.ofBits_zero_f32, zero_add, expSum]

/-- The reference's first result at (b, s, 0) is the row's attention weight at s. -/
theorem weight_apply (x0 : (⟨S256x512x1024, .f32⟩ : BufTy).Contents (Elt Ideal)) (x1 : (⟨S256x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal))
    (b : Fin 256) (s : Fin 512) :
    val_main_v26 (F := Ideal) x0 x1 x2 x3 x4 x5 x6 x7 (ix3 b s (0 : Fin 1))
      = rowWeight x0 x2 x3 (val_main_v7 (F := Ideal) x1 x4 x5) x6 x7 b s := by
  have e : idx_main_v24 (idx_main_v25 (ix3 b s (0 : Fin 1))) = ix2 b (0 : Fin 1) :=
    funext fun a => Fin.ext (by match a with | ⟨0, _⟩ => rfl | ⟨1, _⟩ => rfl)
  rw [val_main_v26_apply, val_main_v25_apply, val_main_v24_apply, e, expo_apply, expSum_apply]
  simp only [Ideal.hostDivf_def, rowWeight, weight]

/-- The reference's second result at (b, u) is the row's context vector at u: the weights, broadcast along the
    feature axis, times the projected features, summed over the sequence axis from 0. -/
theorem context_apply (x0 : (⟨S256x512x1024, .f32⟩ : BufTy).Contents (Elt Ideal)) (x1 : (⟨S256x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal))
    (b : Fin 256) (u : Fin 1024) :
    val_main_v29 (F := Ideal) x0 x1 x2 x3 x4 x5 x6 x7 (ix2 b u)
      = rowContext x0 x2 x3 (val_main_v7 (F := Ideal) x1 x4 x5) x6 x7 b u := by
  have e : ∀ k : Fin 512, idx_main_v29 (ix2 b u) k = ix3 b k u := fun k =>
    funext fun a => Fin.ext (by match a with | ⟨0, _⟩ => rfl | ⟨1, _⟩ => rfl | ⟨2, _⟩ => rfl)
  have ew : ∀ k : Fin 512, idx_main_v27 (ix3 b k u) = ix3 b k (0 : Fin 1) := fun k =>
    funext fun a => Fin.ext (by match a with | ⟨0, _⟩ => rfl | ⟨1, _⟩ => rfl | ⟨2, _⟩ => rfl)
  rw [val_main_v29_apply, val_main_cst_2_apply]
  simp only [e, val_main_v28_apply, val_main_v27_apply, ew, weight_apply, projFeat_apply, Ideal.mulf_def,
    Ideal.ofBits_def, Ideal.ofBits_zero_f32, zero_add, rowContext, context, rowWeight]

end Cert.ReferenceIdeal.RefSide

end
-- ==== Proof.Payload.lean ====
/-
  The kernel body's arithmetic for ONE batch row, read at an index over the extended reals.

  One trip of the body's loop takes the row's features v10 ([1, 512, 1024]) and projected hidden state v17
  ([1, 1, 1024]) together with the resident operands (W1 as v0, b1 as v2, Wv as v4, bv as v6) and forms, in order:
  the projected features (a matrix product into a zero accumulator plus the bias row), tanh of their sum with the
  hidden row, the logits (a second product plus the scalar bias), their maximum, the exponentials, their sum, the
  quotient, its transpose to a lane-dense row — the row of attention weights it stores — and a third product of that
  row with the projected features — the context row it stores. Each product into a zero accumulator is the plain sum
  over the contracted coordinate; a change of float format is the identity; the two reductions along the sequence
  axis are a fold of max from -∞ and a plain sum. So the stored rows are Spec's weight and context of the row.
-/
import proofs.«171468_j33311766348358_2_alg».proof.Proof.Gen.KernelIdeal.Skeleton
import proofs.«171468_j33311766348358_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.AdditiveAttention
open Idealize.ShloMosaic Idealize.ShloMosaic.ValueIdx

/-! ## The three matrix products, each into a zero accumulator: plain sums over the contracted coordinate -/

/-- [512, 1024] × [1024, 1024]: entry (p, q) is ∑ k, l (p, k) · r (k, q). -/
theorem mm_feat {φ₁ φ₂ : FTy} (l : FVec Ideal S512x1024 φ₁) (r : FVec Ideal S1024x1024 φ₂) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have l0 : ∀ (i : S512x1024.Idx) (c : dot_S512x1024_S1024x1024_S512x1024_1_0_0_1_n_n.contr.Idx), (dot_S512x1024_S1024x1024_S512x1024_1_0_0_1_n_n.lhsIdx i c 0).val = (i 0).val := fun i c => by
    unfold DotDims.lhsIdx
    rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
    rfl
  have r1 : ∀ (i : S512x1024.Idx) (c : dot_S512x1024_S1024x1024_S512x1024_1_0_0_1_n_n.contr.Idx), (dot_S512x1024_S1024x1024_S512x1024_1_0_0_1_n_n.rhsIdx i c 1).val = (i 1).val := fun i c => by
    unfold DotDims.rhsIdx
    rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
    rfl
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact l0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (dot_S512x1024_S1024x1024_S512x1024_1_0_0_1_n_n.rhsIdx_val_of_single rfl _ _).trans hk
    | ⟨1, _⟩ => exact r1 _ _)
  rw [el, er]

/-- [512, 1024] × [1024, 1]: entry (p, q) is ∑ k, l (p, k) · r (k, q). -/
theorem mm_logit {φ₁ φ₂ : FTy} (l : FVec Ideal S512x1024 φ₁) (r : FVec Ideal S1024x1 φ₂) (p : Fin 512) (q : Fin 1) :
    matmul dot_S512x1024_S1024x1_S512x1_1_0_0_1_n_n none l r (constant (F := Ideal) S512x1 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x1_S512x1_1_0_0_1_n_n 1024 rfl rfl).symm]
  refine Finset.sum_congr rfl fun k _ => ?_
  have hk := ValueIdx.contrEquiv1_symm_val dot_S512x1024_S1024x1_S512x1_1_0_0_1_n_n 1024 rfl rfl k
  have l0 : ∀ (i : S512x1.Idx) (c : dot_S512x1024_S1024x1_S512x1_1_0_0_1_n_n.contr.Idx), (dot_S512x1024_S1024x1_S512x1_1_0_0_1_n_n.lhsIdx i c 0).val = (i 0).val := fun i c => by
    unfold DotDims.lhsIdx
    rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
    rfl
  have r1 : ∀ (i : S512x1.Idx) (c : dot_S512x1024_S1024x1_S512x1_1_0_0_1_n_n.contr.Idx), (dot_S512x1024_S1024x1_S512x1_1_0_0_1_n_n.rhsIdx i c 1).val = (i 1).val := fun i c => by
    unfold DotDims.rhsIdx
    rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
    rfl
  have el : dot_S512x1024_S1024x1_S512x1_1_0_0_1_n_n.lhsIdx (ix2 p q) ((ValueIdx.contrEquiv1 dot_S512x1024_S1024x1_S512x1_1_0_0_1_n_n 1024 rfl rfl).symm k) = ix2 p k := funext fun a => Fin.ext (by
    match a with
    | ⟨0, _⟩ => exact l0 _ _
    | ⟨1, _⟩ => exact (dot_S512x1024_S1024x1_S512x1_1_0_0_1_n_n.lhsIdx_val_of_single rfl _ _).trans hk)
  have er : dot_S512x1024_S1024x1_S512x1_1_0_0_1_n_n.rhsIdx (ix2 p q) ((ValueIdx.contrEquiv1 dot_S512x1024_S1024x1_S512x1_1_0_0_1_n_n 1024 rfl rfl).symm k) = ix2 k q := funext fun a => Fin.ext (by
    match a with
    | ⟨0, _⟩ => exact (dot_S512x1024_S1024x1_S512x1_1_0_0_1_n_n.rhsIdx_val_of_single rfl _ _).trans hk
    | ⟨1, _⟩ => exact r1 _ _)
  rw [el, er]

/-- [1, 512] × [512, 1024]: entry (p, q) is ∑ k, l (p, k) · r (k, q). -/
theorem mm_ctx {φ₁ φ₂ : FTy} (l : FVec Ideal S1x512 φ₁) (r : FVec Ideal S512x1024 φ₂) (p : Fin 1) (q : Fin 1024) :
    matmul dot_S1x512_S512x1024_S1x1024_1_0_0_1_n_n none l r (constant (F := Ideal) S1x1024 .f32 0x00000000#32) (ix2 p q)
      = ∑ k : Fin 512, l (ix2 p k) * r (ix2 k q) := by
  simp only [matmul]
  rw [Ideal.matmul_constant_zero_apply, ← Equiv.sum_comp (ValueIdx.contrEquiv1 dot_S1x512_S512x1024_S1x1024_1_0_0_1_n_n 512 rfl rfl).symm]
  refine Finset.sum_congr rfl fun k _ => ?_
  have hk := ValueIdx.contrEquiv1_symm_val dot_S1x512_S512x1024_S1x1024_1_0_0_1_n_n 512 rfl rfl k
  have l0 : ∀ (i : S1x1024.Idx) (c : dot_S1x512_S512x1024_S1x1024_1_0_0_1_n_n.contr.Idx), (dot_S1x512_S512x1024_S1x1024_1_0_0_1_n_n.lhsIdx i c 0).val = (i 0).val := fun i c => by
    unfold DotDims.lhsIdx
    rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
    rfl
  have r1 : ∀ (i : S1x1024.Idx) (c : dot_S1x512_S512x1024_S1x1024_1_0_0_1_n_n.contr.Idx), (dot_S1x512_S512x1024_S1x1024_1_0_0_1_n_n.rhsIdx i c 1).val = (i 1).val := fun i c => by
    unfold DotDims.rhsIdx
    rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
    rfl
  have el : dot_S1x512_S512x1024_S1x1024_1_0_0_1_n_n.lhsIdx (ix2 p q) ((ValueIdx.contrEquiv1 dot_S1x512_S512x1024_S1x1024_1_0_0_1_n_n 512 rfl rfl).symm k) = ix2 p k := funext fun a => Fin.ext (by
    match a with
    | ⟨0, _⟩ => exact l0 _ _
    | ⟨1, _⟩ => exact (dot_S1x512_S512x1024_S1x1024_1_0_0_1_n_n.lhsIdx_val_of_single rfl _ _).trans hk)
  have er : dot_S1x512_S512x1024_S1x1024_1_0_0_1_n_n.rhsIdx (ix2 p q) ((ValueIdx.contrEquiv1 dot_S1x512_S512x1024_S1x1024_1_0_0_1_n_n 512 rfl rfl).symm k) = ix2 k q := funext fun a => Fin.ext (by
    match a with
    | ⟨0, _⟩ => exact (dot_S1x512_S512x1024_S1x1024_1_0_0_1_n_n.rhsIdx_val_of_single rfl _ _).trans hk
    | ⟨1, _⟩ => exact r1 _ _)
  rw [el, er]

/-! ## The two reductions along the sequence axis of a [512, 1] column -/

/-- The column's sum: ∑ over its 512 entries. -/
theorem colSum (src : FVec Ideal S512x1 .f32) (h : S512x1.Reduces [0] S1) :
    multiReduction .add [0] S1 src 0x00000000#32 h (.inl rfl) rfl (ix1 (0 : Fin 1))
      = ∑ k : Fin 512, src (ix2 k (0 : Fin 1)) := by
  refine (Ideal.multiReduction_add_single src 0x00000000#32 h (.inl rfl) rfl (ix1 (0 : Fin 1))).trans ?_
  refine Finset.sum_congr rfl fun k _ => congrArg src (funext fun a => Fin.ext ?_)
  match a with
  | ⟨0, _⟩ => rfl
  | ⟨1, _⟩ => rfl

/-- The column's maximum: the fold of max over its 512 entries from -∞. -/
theorem colMax (src : FVec Ideal S512x1 .f32) (h : S512x1.Reduces [0] S1) :
    multiReduction .maximumf [0] S1 src 0xFF800000#32 h (.inl rfl) rfl (ix1 (0 : Fin 1))
      = (Finset.univ : Finset (Fin 512)).fold max negInf (fun k => src (ix2 k (0 : Fin 1))) := by
  refine (Ideal.multiReduction_maximumf_single src 0xFF800000#32 h (.inl rfl) rfl (ix1 (0 : Fin 1))).trans ?_
  refine congrArg (Finset.fold max _ · Finset.univ) (funext fun k => congrArg src (funext fun a => Fin.ext ?_))
  match a with
  | ⟨0, _⟩ => rfl
  | ⟨1, _⟩ => rfl

/-! ## Keepdims forms: a [1] value as a [1, 1] cell broadcast down a [512, 1] column -/

/-- A one-entry vector cast to a [1, 1] cell and broadcast to a [512, 1] column reads its one entry everywhere. -/
theorem cellColumn_apply {α : Type} (v : S1.Idx → α) (h : S1.ShapeCasts S1x1) (h' : S1x1.Broadcasts S512x1) (s : Fin 512) :
    broadcastTo S512x1 (shapeCast S1x1 v h) h' (ix2 s (0 : Fin 1)) = v (ix1 (0 : Fin 1)) := by
  refine (broadcastTo_apply _ h' (ix2 s (0 : Fin 1)) (ix2 (0 : Fin 1) (0 : Fin 1)) fun ax => ?_).trans ?_
  · match ax with
    | ⟨0, _⟩ => rfl
    | ⟨1, _⟩ => rfl
  · exact shapeCast_a_1a_apply v h (0 : Fin 1) (0 : Fin 1)

/-- A [1, 1] cell broadcast to a [512, 1] column reads the cell everywhere. -/
theorem cellBroadcast_apply {α : Type} (v : S1x1.Idx → α) (h : S1x1.ShapeCasts S1x1) (h' : S1x1.Broadcasts S512x1) (s : Fin 512) :
    broadcastTo S512x1 (shapeCast S1x1 v h) h' (ix2 s (0 : Fin 1)) = v (ix2 (0 : Fin 1) (0 : Fin 1)) := by
  rw [shapeCast_self]
  refine broadcastTo_apply _ h' (ix2 s (0 : Fin 1)) (ix2 (0 : Fin 1) (0 : Fin 1)) fun ax => ?_
  match ax with
  | ⟨0, _⟩ => rfl
  | ⟨1, _⟩ => rfl

/-! ## The row's stages -/

section Row

variable (v0 : FVec Ideal S1024x1024 .bf16) (v2 : FVec Ideal S1x1024 .f32) (v4 : FVec Ideal S1024x1 .bf16)
  (v6 : FVec Ideal S1x1 .f32) (v10 : FVec Ideal S1x512x1024 .f32) (v17 : FVec Ideal S1x1x1024 .f32)

/-- The row's data as the specification takes it: features, projection, bias, hidden row, scoring vector, its bias. -/
abbrev rX : Fin 512 → Fin 1024 → EReal := fun s e => v10 (ix3 (0 : Fin 1) s e)
abbrev rW : Fin 1024 → Fin 1024 → EReal := fun e u => v0 (ix2 e u)
abbrev rB : Fin 1024 → EReal := fun u => v2 (ix2 (0 : Fin 1) u)
abbrev rP : Fin 1024 → EReal := fun u => v17 (ix3 (0 : Fin 1) (0 : Fin 1) u)
abbrev rV : Fin 1024 → EReal := fun u => v4 (ix2 u (0 : Fin 1))
abbrev rC : EReal := v6 (ix2 (0 : Fin 1) (0 : Fin 1))

/-- The projected features: the first product plus the bias row. -/
theorem pay1_apply (s : Fin 512) (u : Fin 1024) :
    (k0_pay1 (F := Ideal) v0 v2 v10 (ix2 s u) : EReal) = projFeat (rX v10) (rW v0) (rB v2) s u := by
  unfold k0_pay1 projFeat
  rw [addf_apply, mm_feat, broadcastTo_1b_ab_apply]
  simp only [shapeCast_self, truncf_apply, shapeCast_1ab_ab_apply]

/-- tanh and exp act entry by entry. -/
theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-- The logits column of a row whose projected features are pf: entry s is ∑ u, tanh (pf s u + hidden u) · Wv u, plus bv. -/
theorem logits_apply (pf : FVec Ideal S512x1024 .f32) (h1 : S1x1x1024.ShapeCasts S1x1024) (h2 : S1x1024.Broadcasts S512x1024)
    (h4 : S1024x1.ShapeCasts S1024x1) (h5 : S1x1.ShapeCasts S1x1) (h6 : S1x1.Broadcasts S512x1)
    (hb : FTy.bits .bf16 < FTy.bits .f32) (s : Fin 512) :
    (addf (matmul dot_S512x1024_S1024x1_S512x1_1_0_0_1_n_n none
          (truncf .bf16 (tanh (addf pf (broadcastTo S512x1024 (shapeCast S1x1024 v17 h1) h2))) hb)
          (shapeCast S1024x1 v4 h4) (constant (F := Ideal) S512x1 .f32 0x00000000#32))
        (broadcastTo S512x1 (shapeCast S1x1 v6 h5) h6) (ix2 s (0 : Fin 1)) : EReal)
      = (∑ u : Fin 1024, Ideal.tanh (pf (ix2 s u) + rP v17 u) * rV v4 u) + rC v6 := by
  rw [addf_apply, mm_logit, cellBroadcast_apply]
  simp only [truncf_apply, tanh_apply, addf_apply, shapeCast_self, broadcastTo_1b_ab_apply, shapeCast_1ab_ab_apply]

/-- The softmax of a [512, 1] column lg along its 512 entries, transposed to a [1, 512] row: entry s is
    exp (lg s - M) / ∑ k, exp (lg k - M) with M the column's maximum. -/
theorem softmaxRow_apply (lg : FVec Ideal S512x1 .f32) (hr : S512x1.Reduces [0] S1) (hc : S1.ShapeCasts S1x1)
    (hb : S1x1.Broadcasts S512x1) (ht : S512x1.Transposes [1, 0] S1x512) (s : Fin 512) :
    (transpose S1x512 [1, 0]
        (divf (exp (subf lg (broadcastTo S512x1 (shapeCast S1x1 (multiReduction .maximumf [0] S1 lg 0xFF800000#32 hr (.inl rfl) rfl) hc) hb)))
          (broadcastTo S512x1 (shapeCast S1x1 (multiReduction .add [0] S1
            (exp (subf lg (broadcastTo S512x1 (shapeCast S1x1 (multiReduction .maximumf [0] S1 lg 0xFF800000#32 hr (.inl rfl) rfl) hc) hb)))
            0x00000000#32 hr (.inl rfl) rfl) hc) hb)) ht (ix2 (0 : Fin 1) s) : EReal)
      = Ideal.div (Ideal.exp (lg (ix2 s (0 : Fin 1)) - (Finset.univ : Finset (Fin 512)).fold max negInf (fun k => lg (ix2 k (0 : Fin 1)))))
          (∑ j : Fin 512, Ideal.exp (lg (ix2 j (0 : Fin 1)) - (Finset.univ : Finset (Fin 512)).fold max negInf (fun k => lg (ix2 k (0 : Fin 1))))) := by
  have hM := colMax lg hr
  rw [transpose_ix2_apply, divf_apply, cellColumn_apply, colSum]
  simp only [exp_apply, subf_apply, cellColumn_apply]
  rw [hM]

/-- The stored row of attention weights, before its cast to [1, 1, 512]: the row's softmax weights. -/
theorem pay2_apply (s : Fin 512) :
    (k0_pay2 (F := Ideal) v0 v2 v4 v6 v10 v17 (ix2 (0 : Fin 1) s) : EReal)
      = weight (rX v10) (rW v0) (rB v2) (rP v17) (rV v4) (rC v6) s := by
  unfold k0_pay2
  rw [softmaxRow_apply]
  simp only [logits_apply, pay1_apply]
  rfl

/-- The stored row of attention weights at (0, 0, s). -/
theorem pay3_apply (s : Fin 512) :
    (k0_pay3 (F := Ideal) v0 v2 v4 v6 v10 v17 (ix3 (0 : Fin 1) (0 : Fin 1) s) : EReal)
      = weight (rX v10) (rW v0) (rB v2) (rP v17) (rV v4) (rC v6) s := by
  unfold k0_pay3
  rw [shapeCast_ab_1ab_apply]
  exact pay2_apply v0 v2 v4 v6 v10 v17 s

/-- The stored context row at (0, 0, u): the weights against the projected features. -/
theorem pay4_apply (u : Fin 1024) :
    (k0_pay4 (F := Ideal) v0 v2 v4 v6 v10 v17 (ix3 (0 : Fin 1) (0 : Fin 1) u) : EReal)
      = context (rX v10) (rW v0) (rB v2) (rP v17) (rV v4) (rC v6) u := by
  unfold k0_pay4
  rw [shapeCast_ab_1ab_apply, mm_ctx]
  simp only [truncf_apply, pay2_apply, pay1_apply]
  rfl

end Row

end Cert.KernelIdeal.Payload

end
-- ==== Proof.Stored.lean ====
/-
  What one grid point leaves in its two output blocks.

  The body's loop runs four trips; trip k loads batch row k of the staged feature block and of the staged hidden-state
  block, and stores the row's attention weights into row k of the [4, 1, 512] output block and the row's context vector
  into row k of the [4, 1, 1024] output block. Every stored piece is therefore the restriction, to row k, of ONE function
  of the block index: (j, 0, s) ↦ the weights of row j, and (j, 0, u) ↦ the context of row j, both computed from the
  blocks the point holds. Four such pieces tile each block, so after the body the blocks hold those functions.
-/
import proofs.«171468_j33311766348358_2_alg».proof.Proof.Gen.KernelIdeal.Frame
import proofs.«171468_j33311766348358_2_alg».proof.Proof.Payload
import Idealize.ShloMosaic.Lib.Pipeline.Value

set_option maxRecDepth 16384

noncomputable section

namespace Cert.KernelIdeal.Stored

open Cert.KernelIdeal Cert.KernelIdeal.Gen Cert.AdditiveAttention Cert.KernelIdeal.Payload
open Idealize.ShloMosaic Idealize.ShloMosaic.TcCoe Idealize.ShloMosaic.ValueIdx Idealize.SL.Sem

/-! ## The pieces of the trips before n: each is some trip's one store -/

section Pieces

variable (𝒱 : Variants) (bd : Option 𝒱.V) (c : Dev nD) (i : grid0.Coords) (arg1 : Memref sig .tc .vmem S4x512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1x1024 .f32) (harg4 : arg4.IsWhole) (arg5 : Memref sig .tc .vmem S1024x1 .bf16) (harg5 : arg5.IsWhole) (arg6 : Memref sig .tc .vmem S1x1 .f32) (harg6 : arg6.IsWhole) (arg7 : Memref sig .tc .vmem S4x1x1024 .f32) (harg7 : arg7.IsWhole) (arg8 : Memref sig .tc .vmem S4x1x512 .f32) (harg8 : arg8.IsWhole)
  (v0 : Vec Ideal S1024x1024 .bf16) (v2 : Vec Ideal S1x1024 .f32) (v4 : Vec Ideal S1024x1 .bf16) (v6 : Vec Ideal S1x1 .f32)
  (X1 : BufTy.Contents (Elt Ideal) arg1.view.ty) (X4 : BufTy.Contents (Elt Ideal) arg4.view.ty)

/-- Trip k's one store into the context block: row k's context payload, computed from the trip's two loads, at the
    rectangle of row k. -/
abbrev ctxPiece (k : Fin k0_t1_loop.trips) : View.Piece (Elt Ideal) S4x1x1024 .f32 :=
  ⟨Rect.unit (s := S4x1x1024) (k0_off2 k) S1x1x1024.size (k0_off2_inb k),
    k0_pay4 v0 v2 v4 v6
      (View.readAt (Elt Ideal) arg1.view (Rect.unit (s := S4x512x1024) (k0_off1 k) S1x512x1024.size (k0_off1_inb k)).toLoadRect X1)
      (View.readAt (Elt Ideal) arg4.view (Rect.unit (s := S4x1x1024) (k0_off2 k) S1x1x1024.size (k0_off2_inb k)).toLoadRect X4)⟩

/-- Trip k's one store into the weights block: row k's weights payload at the rectangle of row k. -/
abbrev wgtPiece (k : Fin k0_t1_loop.trips) : View.Piece (Elt Ideal) S4x1x512 .f32 :=
  ⟨Rect.unit (s := S4x1x512) (k0_off3 k) S1x1x512.size (k0_off3_inb k),
    k0_pay3 v0 v2 v4 v6
      (View.readAt (Elt Ideal) arg1.view (Rect.unit (s := S4x512x1024) (k0_off1 k) S1x512x1024.size (k0_off1_inb k)).toLoadRect X1)
      (View.readAt (Elt Ideal) arg4.view (Rect.unit (s := S4x1x1024) (k0_off2 k) S1x1x1024.size (k0_off2_inb k)).toLoadRect X4)⟩

/-- What trip k stores into the context block is that one piece, -/
theorem trip_ctx (k : Fin k0_t1_loop.trips) :
    (trip_k0_t1 (F := Ideal) 𝒱 c bd i arg1 harg1 arg2 harg2 arg3 harg3 arg4 harg4 arg5 harg5 arg6 harg6 arg7 harg7 arg8 harg8 v0 v2 v4 v6 X1 X4 k).1 = [ctxPiece arg1 arg4 v0 v2 v4 v6 X1 X4 k] := by
  unfold trip_k0_t1
  rfl

/-- and into the weights block that one. -/
theorem trip_wgt (k : Fin k0_t1_loop.trips) :
    (trip_k0_t1 (F := Ideal) 𝒱 c bd i arg1 harg1 arg2 harg2 arg3 harg3 arg4 harg4 arg5 harg5 arg6 harg6 arg7 harg7 arg8 harg8 v0 v2 v4 v6 X1 X4 k).2.1 = [wgtPiece arg1 arg4 v0 v2 v4 v6 X1 X4 k] := by
  unfold trip_k0_t1
  rfl

/-- Every piece stored into the context block by the trips before n is some trip's. -/
theorem ctxPieces (n : ℕ) : ∀ p ∈ (pb_k0_t1 (F := Ideal) 𝒱 c bd i arg1 harg1 arg2 harg2 arg3 harg3 arg4 harg4 arg5 harg5 arg6 harg6 arg7 harg7 arg8 harg8 v0 v2 v4 v6 X1 X4 n).1,
    ∃ k : Fin k0_t1_loop.trips, p = ctxPiece arg1 arg4 v0 v2 v4 v6 X1 X4 k := by
  induction n with
  | zero => intro p hp; rw [pb_k0_t1.eq_1] at hp; exact absurd hp List.not_mem_nil
  | succ n ih =>
    intro p hp
    by_cases h : n < k0_t1_loop.trips
    · have e := pb_k0_t1_succ (F := Ideal) 𝒱 c bd i arg1 harg1 arg2 harg2 arg3 harg3 arg4 harg4 arg5 harg5 arg6 harg6 arg7 harg7 arg8 harg8 v0 v2 v4 v6 X1 X4 ⟨n, h⟩
      dsimp only at e
      rw [e] at hp
      rcases List.mem_append.mp hp with h1 | h2
      · have h1' : p ∈ (trip_k0_t1 (F := Ideal) 𝒱 c bd i arg1 harg1 arg2 harg2 arg3 harg3 arg4 harg4 arg5 harg5 arg6 harg6 arg7 harg7 arg8 harg8 v0 v2 v4 v6 X1 X4 ⟨n, h⟩).1 := h1
        rw [trip_ctx] at h1'
        exact ⟨⟨n, h⟩, List.mem_singleton.mp h1'⟩
      · exact ih p h2
    · rw [pb_k0_t1.eq_2] at hp
      unfold pb_k0_t1Step at hp
      rw [dif_neg h] at hp
      exact ih p hp

/-- Every piece stored into the weights block by the trips before n is some trip's. -/
theorem wgtPieces (n : ℕ) : ∀ p ∈ (pb_k0_t1 (F := Ideal) 𝒱 c bd i arg1 harg1 arg2 harg2 arg3 harg3 arg4 harg4 arg5 harg5 arg6 harg6 arg7 harg7 arg8 harg8 v0 v2 v4 v6 X1 X4 n).2,
    ∃ k : Fin k0_t1_loop.trips, p = wgtPiece arg1 arg4 v0 v2 v4 v6 X1 X4 k := by
  induction n with
  | zero => intro p hp; rw [pb_k0_t1.eq_1] at hp; exact absurd hp List.not_mem_nil
  | succ n ih =>
    intro p hp
    by_cases h : n < k0_t1_loop.trips
    · have e := pb_k0_t1_succ (F := Ideal) 𝒱 c bd i arg1 harg1 arg2 harg2 arg3 harg3 arg4 harg4 arg5 harg5 arg6 harg6 arg7 harg7 arg8 harg8 v0 v2 v4 v6 X1 X4 ⟨n, h⟩
      dsimp only at e
      rw [e] at hp
      rcases List.mem_append.mp hp with h1 | h2
      · have h1' : p ∈ (trip_k0_t1 (F := Ideal) 𝒱 c bd i arg1 harg1 arg2 harg2 arg3 harg3 arg4 harg4 arg5 harg5 arg6 harg6 arg7 harg7 arg8 harg8 v0 v2 v4 v6 X1 X4 ⟨n, h⟩).2.1 := h1
        rw [trip_wgt] at h1'
        exact ⟨⟨n, h⟩, List.mem_singleton.mp h1'⟩
      · exact ih p h2
    · rw [pb_k0_t1.eq_2] at hp
      unfold pb_k0_t1Step at hp
      rw [dif_neg h] at hp
      exact ih p hp

end Pieces

/-! ## The values: every piece is a row of one function of the block index -/

section Values

variable (c : Dev nD) (i : grid0.Coords) (arg1 : Memref sig .tc .vmem S4x512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1x1024 .f32) (harg4 : arg4.IsWhole) (arg5 : Memref sig .tc .vmem S1024x1 .bf16) (harg5 : arg5.IsWhole) (arg6 : Memref sig .tc .vmem S1x1 .f32) (harg6 : arg6.IsWhole) (arg7 : Memref sig .tc .vmem S4x1x1024 .f32) (harg7 : arg7.IsWhole) (arg8 : Memref sig .tc .vmem S4x1x512 .f32) (harg8 : arg8.IsWhole)
  (x0 : Vec Ideal S4x512x1024 .f32) (x1 : Vec Ideal S1024x1024 .bf16) (x2 : Vec Ideal S1x1024 .f32)
  (x3 : Vec Ideal S4x1x1024 .f32) (x4 : Vec Ideal S1024x1 .bf16) (x5 : Vec Ideal S1x1 .f32)

/-- The loop has at most four trips. -/
theorem trip_lt (k : Fin k0_t1_loop.trips) : k.val < 4 := Nat.lt_of_lt_of_le k.isLt k0_t1_abs.2.1

/-- The context block a point leaves: (j, 0, u) ↦ the context of row j of the staged blocks. -/
def ctxBlock : S4x1x1024.Idx → EReal := fun y =>
  blockContext x0 x1 x2 x3 x4 x5 ⟨(y 0).val, (y 0).isLt⟩ ⟨(y 2).val, (y 2).isLt⟩

/-- The weights block a point leaves: (j, 0, s) ↦ the attention weight of position s of row j. -/
def wgtBlock : S4x1x512.Idx → EReal := fun y =>
  blockWeight x0 x1 x2 x3 x4 x5 ⟨(y 0).val, (y 0).isLt⟩ ⟨(y 2).val, (y 2).isLt⟩

/-- Trip k's load of the feature block is its row k. -/
theorem rowFeat_eq (k : Fin k0_t1_loop.trips) :
    rX (View.readAt (Elt Ideal) arg1.view (Rect.unit (s := S4x512x1024) (k0_off1 k) S1x512x1024.size (k0_off1_inb k)).toLoadRect (harg1.unread x0))
      = fun s e => x0 (ix3 (⟨k.val, trip_lt k⟩ : Fin 4) s e) := by
  funext s e
  dsimp only [rX]
  rw [View.readAt_eq_ld, harg1.read_unread]
  refine congrArg x0 (funext fun a => Fin.ext ?_)
  have e0 : k0_off1 k 0 = k.val := congrFun (k0_off1_eq k) 0
  have e1 : k0_off1 k 1 = 0 := congrFun (k0_off1_eq k) 1
  have e2 : k0_off1 k 2 = 0 := congrFun (k0_off1_eq k) 2
  match a with
  | ⟨0, _⟩ => show k0_off1 k 0 + 1 * 0 = k.val; omega
  | ⟨1, _⟩ => show k0_off1 k 1 + 1 * s.val = s.val; omega
  | ⟨2, _⟩ => show k0_off1 k 2 + 1 * e.val = e.val; omega

/-- Trip k's load of the hidden-state block is its row k. -/
theorem rowHid_eq (k : Fin k0_t1_loop.trips) :
    rP (View.readAt (Elt Ideal) arg4.view (Rect.unit (s := S4x1x1024) (k0_off2 k) S1x1x1024.size (k0_off2_inb k)).toLoadRect (harg4.unread x3))
      = fun u => x3 (ix3 (⟨k.val, trip_lt k⟩ : Fin 4) (0 : Fin 1) u) := by
  funext u
  dsimp only [rP]
  rw [View.readAt_eq_ld, harg4.read_unread]
  refine congrArg x3 (funext fun a => Fin.ext ?_)
  have e0 : k0_off2 k 0 = k.val := congrFun (k0_off2_eq k) 0
  have e1 : k0_off2 k 1 = 0 := congrFun (k0_off2_eq k) 1
  have e2 : k0_off2 k 2 = 0 := congrFun (k0_off2_eq k) 2
  match a with
  | ⟨0, _⟩ => show k0_off2 k 0 + 1 * 0 = k.val; omega
  | ⟨1, _⟩ => show k0_off2 k 1 + 1 * 0 = 0; omega
  | ⟨2, _⟩ => show k0_off2 k 2 + 1 * u.val = u.val; omega

/-- Trip k's context piece is row k of the context block. -/
theorem ctxPiece_apply (v0 : Vec Ideal S1024x1024 .bf16) (v2 : Vec Ideal S1x1024 .f32) (v4 : Vec Ideal S1024x1 .bf16) (v6 : Vec Ideal S1x1 .f32)
    (h0 : v0 = x1) (h2 : v2 = x2) (h4 : v4 = x4) (h6 : v6 = x5) (k : Fin k0_t1_loop.trips)
    (x : (ctxPiece arg1 arg4 v0 v2 v4 v6 (harg1.unread x0) (harg4.unread x3) k).1.shape.Idx) :
    (ctxPiece arg1 arg4 v0 v2 v4 v6 (harg1.unread x0) (harg4.unread x3) k).2 x
      = ctxBlock x0 x1 x2 x3 x4 x5 ((ctxPiece arg1 arg4 v0 v2 v4 v6 (harg1.unread x0) (harg4.unread x3) k).1.emb x) := by
  subst h0 h2 h4 h6
  obtain ⟨a, b, u, rfl⟩ : ∃ (a : Fin 1) (b : Fin 1) (u : Fin 1024), x = ix3 a b u := ⟨x 0, x 1, x 2, eq_ix3 x⟩
  obtain rfl : a = 0 := Subsingleton.elim _ _
  obtain rfl : b = 0 := Subsingleton.elim _ _
  have hy : (Rect.unit (s := S4x1x1024) (k0_off2 k) S1x1x1024.size (k0_off2_inb k)).emb (ix3 (0 : Fin 1) (0 : Fin 1) u)
      = ix3 (⟨k.val, trip_lt k⟩ : Fin 4) (0 : Fin 1) u := by
    have e0 : k0_off2 k 0 = k.val := congrFun (k0_off2_eq k) 0
    have e1 : k0_off2 k 1 = 0 := congrFun (k0_off2_eq k) 1
    have e2 : k0_off2 k 2 = 0 := congrFun (k0_off2_eq k) 2
    funext a
    apply Fin.ext
    match a with
    | ⟨0, _⟩ => show k0_off2 k 0 + 1 * 0 = k.val; omega
    | ⟨1, _⟩ => show k0_off2 k 1 + 1 * 0 = 0; omega
    | ⟨2, _⟩ => show k0_off2 k 2 + 1 * u.val = u.val; omega
  refine (?_ : _ = _).trans (congrArg _ hy.symm)
  show (k0_pay4 (F := Ideal) _ _ _ _ _ _ (ix3 (0 : Fin 1) (0 : Fin 1) u) : EReal) = blockContext x0 _ _ x3 _ _ ⟨k.val, trip_lt k⟩ u
  rw [pay4_apply, rowFeat_eq, rowHid_eq]
  rfl

/-- Trip k's weights piece is row k of the weights block. -/
theorem wgtPiece_apply (v0 : Vec Ideal S1024x1024 .bf16) (v2 : Vec Ideal S1x1024 .f32) (v4 : Vec Ideal S1024x1 .bf16) (v6 : Vec Ideal S1x1 .f32)
    (h0 : v0 = x1) (h2 : v2 = x2) (h4 : v4 = x4) (h6 : v6 = x5) (k : Fin k0_t1_loop.trips)
    (x : (wgtPiece arg1 arg4 v0 v2 v4 v6 (harg1.unread x0) (harg4.unread x3) k).1.shape.Idx) :
    (wgtPiece arg1 arg4 v0 v2 v4 v6 (harg1.unread x0) (harg4.unread x3) k).2 x
      = wgtBlock x0 x1 x2 x3 x4 x5 ((wgtPiece arg1 arg4 v0 v2 v4 v6 (harg1.unread x0) (harg4.unread x3) k).1.emb x) := by
  subst h0 h2 h4 h6
  obtain ⟨a, b, s, rfl⟩ : ∃ (a : Fin 1) (b : Fin 1) (s : Fin 512), x = ix3 a b s := ⟨x 0, x 1, x 2, eq_ix3 x⟩
  obtain rfl : a = 0 := Subsingleton.elim _ _
  obtain rfl : b = 0 := Subsingleton.elim _ _
  have hy : (Rect.unit (s := S4x1x512) (k0_off3 k) S1x1x512.size (k0_off3_inb k)).emb (ix3 (0 : Fin 1) (0 : Fin 1) s)
      = ix3 (⟨k.val, trip_lt k⟩ : Fin 4) (0 : Fin 1) s := by
    have e0 : k0_off3 k 0 = k.val := congrFun (k0_off3_eq k) 0
    have e1 : k0_off3 k 1 = 0 := congrFun (k0_off3_eq k) 1
    have e2 : k0_off3 k 2 = 0 := congrFun (k0_off3_eq k) 2
    funext a
    apply Fin.ext
    match a with
    | ⟨0, _⟩ => show k0_off3 k 0 + 1 * 0 = k.val; omega
    | ⟨1, _⟩ => show k0_off3 k 1 + 1 * 0 = 0; omega
    | ⟨2, _⟩ => show k0_off3 k 2 + 1 * s.val = s.val; omega
  refine (?_ : _ = _).trans (congrArg _ hy.symm)
  show (k0_pay3 (F := Ideal) _ _ _ _ _ _ (ix3 (0 : Fin 1) (0 : Fin 1) s) : EReal) = blockWeight x0 _ _ x3 _ _ ⟨k.val, trip_lt k⟩ s
  rw [pay3_apply, rowFeat_eq, rowHid_eq]
  rfl

end Values

/-! ## The two output blocks after the body -/

section Blocks

variable (c : Dev nD) (i : grid0.Coords) (arg1 : Memref sig .tc .vmem S4x512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S4x1x1024 .f32) (harg4 : arg4.IsWhole) (arg5 : Memref sig .tc .vmem S1024x1 .bf16) (harg5 : arg5.IsWhole) (arg6 : Memref sig .tc .vmem S1x1 .f32) (harg6 : arg6.IsWhole) (arg7 : Memref sig .tc .vmem S4x1x1024 .f32) (harg7 : arg7.IsWhole) (arg8 : Memref sig .tc .vmem S4x1x512 .f32) (harg8 : arg8.IsWhole)
  (x0 : Vec Ideal S4x512x1024 .f32) (x1 : Vec Ideal S1024x1024 .bf16) (x2 : Vec Ideal S1x1024 .f32)
  (x3 : Vec Ideal S4x1x1024 .f32) (x4 : Vec Ideal S1024x1 .bf16) (x5 : Vec Ideal S1x1 .f32)

theorem hz2 : (![0, 0] : Fin 2 → Nat) = fun _ => 0 := funext fun a => by fin_cases a <;> rfl

/-- A resident operand loaded whole is its contents. -/
theorem res1 : View.readAt (Elt Ideal) arg2.view (Rect.unit (s := S1024x1024) ![0, 0] S1024x1024.size inb_S1024x1024_S1024x1024_0_0).toLoadRect (harg2.unread x1) = x1 := by
  rw [View.readAt_eq_ld, harg2.read_unread, View.ld_unit_zero (S := S1024x1024) hz2]
theorem res2 : View.readAt (Elt Ideal) arg3.view (Rect.unit (s := S1x1024) ![0, 0] S1x1024.size inb_S1x1024_S1x1024_0_0).toLoadRect (harg3.unread x2) = x2 := by
  rw [View.readAt_eq_ld, harg3.read_unread, View.ld_unit_zero (S := S1x1024) hz2]
theorem res4 : View.readAt (Elt Ideal) arg5.view (Rect.unit (s := S1024x1) ![0, 0] S1024x1.size inb_S1024x1_S1024x1_0_0).toLoadRect (harg5.unread x4) = x4 := by
  rw [View.readAt_eq_ld, harg5.read_unread, View.ld_unit_zero (S := S1024x1) hz2]
theorem res5 : View.readAt (Elt Ideal) arg6.view (Rect.unit (s := S1x1) ![0, 0] S1x1.size inb_S1x1_S1x1_0_0).toLoadRect (harg6.unread x5) = x5 := by
  rw [View.readAt_eq_ld, harg6.read_unread, View.ld_unit_zero (S := S1x1) hz2]

/-- After the body the context block holds, at (j, 0, u), the context of row j of the staged blocks. -/
theorem out6_eq : out0_A_6 (F := Ideal) c i arg1 harg1 arg2 harg2 arg3 harg3 arg4 harg4 arg5 harg5 arg6 harg6 arg7 harg7 arg8 harg8 x0 x1 x2 x3 x4 x5 = ctxBlock x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  funext y
  refine View.canon_apply_of_pieces (ctxBlock x0 x1 x2 x3 x4 x5) _ (fun p hp x => ?_) y (cover0_A_6 c i arg1 harg1 arg2 harg2 arg3 harg3 arg4 harg4 arg5 harg5 arg6 harg6 arg7 harg7 arg8 harg8 x0 x1 x2 x3 x4 x5 y)
  unfold kernelRun0_A at hp
  dsimp only at hp
  obtain ⟨k, rfl⟩ := ctxPieces Variants.none none c i arg1 harg1 arg2 harg2 arg3 harg3 arg4 harg4 arg5 harg5 arg6 harg6 arg7 harg7 arg8 harg8 _ _ _ _ (harg1.unread x0) (harg4.unread x3) _ p hp
  exact ctxPiece_apply arg1 harg1 arg4 harg4 x0 x1 x2 x3 x4 x5 _ _ _ _ (res1 arg2 harg2 x1) (res2 arg3 harg3 x2) (res4 arg5 harg5 x4) (res5 arg6 harg6 x5) k x

/-- After the body the weights block holds, at (j, 0, s), the attention weight of position s of row j. -/
theorem out7_eq : out0_A_7 (F := Ideal) c i arg1 harg1 arg2 harg2 arg3 harg3 arg4 harg4 arg5 harg5 arg6 harg6 arg7 harg7 arg8 harg8 x0 x1 x2 x3 x4 x5 = wgtBlock x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5)]
  funext y
  refine View.canon_apply_of_pieces (wgtBlock x0 x1 x2 x3 x4 x5) _ (fun p hp x => ?_) y (cover0_A_7 c i arg1 harg1 arg2 harg2 arg3 harg3 arg4 harg4 arg5 harg5 arg6 harg6 arg7 harg7 arg8 harg8 x0 x1 x2 x3 x4 x5 y)
  unfold kernelRun0_A at hp
  dsimp only at hp
  obtain ⟨k, rfl⟩ := wgtPieces Variants.none none c i arg1 harg1 arg2 harg2 arg3 harg3 arg4 harg4 arg5 harg5 arg6 harg6 arg7 harg7 arg8 harg8 _ _ _ _ (harg1.unread x0) (harg4.unread x3) _ p hp
  exact wgtPiece_apply arg1 harg1 arg4 harg4 x0 x1 x2 x3 x4 x5 _ _ _ _ (res1 arg2 harg2 x1) (res2 arg3 harg3 x2) (res4 arg5 harg5 x4) (res5 arg6 harg6 x5) k x

end Blocks

end Cert.KernelIdeal.Stored

end
-- ==== Proof.BlockRow.lean ====
/-
  A staged block's row is an array's row.

  If row j of the staged feature and hidden-state blocks is batch row b of the arrays they were cut from, and the
  resident operands are the arrays themselves (the bias and the scalar read through their added unit axes), then
  row j's attention weights and context vector, computed from the blocks, are batch row b's, computed from the
  arrays: the per-row terms see their data only through these entries.
-/
import proofs.«171468_j33311766348358_2_alg».proof.Proof.Spec

noncomputable section

namespace Cert.AdditiveAttention

open Idealize.ShloMosaic Idealize.ShloMosaic.ValueIdx

variable (x0 : (⟨3, ![4, 512, 1024]⟩ : Shape).Idx → EReal) (x1 : (⟨2, ![1024, 1024]⟩ : Shape).Idx → EReal)
  (x2 : (⟨2, ![1, 1024]⟩ : Shape).Idx → EReal) (x3 : (⟨3, ![4, 1, 1024]⟩ : Shape).Idx → EReal)
  (x4 : (⟨2, ![1024, 1]⟩ : Shape).Idx → EReal) (x5 : (⟨2, ![1, 1]⟩ : Shape).Idx → EReal)
  (a0 : (⟨3, ![256, 512, 1024]⟩ : Shape).Idx → EReal) (a2 : (⟨2, ![1024, 1024]⟩ : Shape).Idx → EReal)
  (a3 : (⟨1, ![1024]⟩ : Shape).Idx → EReal) (ph : (⟨2, ![256, 1024]⟩ : Shape).Idx → EReal)
  (a6 : (⟨2, ![1024, 1]⟩ : Shape).Idx → EReal) (a7 : (⟨1, ![1]⟩ : Shape).Idx → EReal)

/-- Row j of the blocks is batch row b of the arrays: the same context vector. -/
theorem blockContext_eq_row (b : Fin 256) (j : Fin 4)
    (h0 : ∀ s e, x0 (ix3 j s e) = a0 (ix3 b s e)) (h1 : ∀ e u, x1 (ix2 e u) = a2 (ix2 e u))
    (h2 : ∀ u, x2 (ix2 (0 : Fin 1) u) = a3 (ix1 u)) (h3 : ∀ u, x3 (ix3 j (0 : Fin 1) u) = ph (ix2 b u))
    (h4 : ∀ u, x4 (ix2 u (0 : Fin 1)) = a6 (ix2 u (0 : Fin 1))) (h5 : x5 (ix2 (0 : Fin 1) (0 : Fin 1)) = a7 (ix1 (0 : Fin 1)))
    (u : Fin 1024) : blockContext x0 x1 x2 x3 x4 x5 j u = rowContext a0 a2 a3 ph a6 a7 b u := by
  unfold blockContext rowContext
  simp only [h0, h1, h2, h3, h4, h5]

/-- Row j of the blocks is batch row b of the arrays: the same attention weights. -/
theorem blockWeight_eq_row (b : Fin 256) (j : Fin 4)
    (h0 : ∀ s e, x0 (ix3 j s e) = a0 (ix3 b s e)) (h1 : ∀ e u, x1 (ix2 e u) = a2 (ix2 e u))
    (h2 : ∀ u, x2 (ix2 (0 : Fin 1) u) = a3 (ix1 u)) (h3 : ∀ u, x3 (ix3 j (0 : Fin 1) u) = ph (ix2 b u))
    (h4 : ∀ u, x4 (ix2 u (0 : Fin 1)) = a6 (ix2 u (0 : Fin 1))) (h5 : x5 (ix2 (0 : Fin 1) (0 : Fin 1)) = a7 (ix1 (0 : Fin 1)))
    (s : Fin 512) : blockWeight x0 x1 x2 x3 x4 x5 j s = rowWeight a0 a2 a3 ph a6 a7 b s := by
  unfold blockWeight rowWeight
  simp only [h0, h1, h2, h3, h4, h5]

end Cert.AdditiveAttention

end
-- ==== Proof.Arrays.lean ====
/-
  From the staged blocks to the whole arrays.

  The grid has 64 points; point t stages batch rows 4t … 4t + 3 of the features and of the projected hidden state
  (which the host computed before the launch as hidden · W2 + b2, reshaped to [256, 1, 1024]), and holds the
  projection, its bias, the scoring vector and its bias whole (the two matrices after a change of float format, which
  changes nothing here; the two biases through an added unit axis). So row j of what point t leaves in its output
  blocks is batch row 4t + j of ONE function of the argument arrays, and since the 64 blocks tile each output array,
  after the run the [256, 1, 1024] array holds every row's context vector and the [256, 1, 512] array every row's
  attention weights.
-/
import proofs.«171468_j33311766348358_2_alg».proof.Proof.Gen.KernelIdeal.Frame
import proofs.«171468_j33311766348358_2_alg».proof.Proof.Stored
import proofs.«171468_j33311766348358_2_alg».proof.Proof.BlockRow
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.Arrays

open Cert.KernelIdeal Cert.KernelIdeal.Gen Cert.AdditiveAttention Cert.KernelIdeal.Stored
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the host wrote before the launch -/

/-- The projected hidden state, [256, 1024]: hidden · W2 plus the bias row broadcast down the batch. -/
def projHid (c : Dev nD) : FVec Ideal S256x1024 .f32 :=
  addf (Host.dotGeneral (F := Ideal) (φ₁ := .f32) (φ₂ := .f32) dot_S256x1024_S1024x1024_S256x1024_1_0_0_1_n_n none
      (m ((c : Thread nD τ).loc main_arg1) : FVec Ideal S256x1024 .f32) (m ((c : Thread nD τ).loc main_arg4) : FVec Ideal S1024x1024 .f32))
    (broadcastInDim S256x1024 ![0, 1] bcast_S1x1024_S256x1024_0_1
      (broadcastInDim S1x1024 ![1] bcast_S1024_S1x1024_1 (m ((c : Thread nD τ).loc main_arg5) : FVec Ideal S1024 .f32)))

theorem V_v0 (c : Dev nD) : (V m c main_v0 : FVec Ideal S1024x1024 .bf16) = truncf (F := Ideal) .bf16 (m ((c : Thread nD τ).loc main_arg2) : FVec Ideal S1024x1024 .f32) bitsLt_bf16_f32 := by
  show StableHlo.after hostOps0 (fun b => m (c, b)) (Proc.devRef .tc main_v0) = _
  after_results
theorem V_v1 (c : Dev nD) : (V m c main_v1 : FVec Ideal S1024x1 .bf16) = truncf (F := Ideal) .bf16 (m ((c : Thread nD τ).loc main_arg6) : FVec Ideal S1024x1 .f32) bitsLt_bf16_f32 := by
  show StableHlo.after hostOps0 (fun b => m (c, b)) (Proc.devRef .tc main_v1) = _
  after_results
theorem V_v2 (c : Dev nD) : (V m c main_v2 : S1x1024.Idx → Elt Ideal .f32) = shapeCast S1x1024 (m ((c : Thread nD τ).loc main_arg3)) shapeCasts_S1024_S1x1024 := by
  show StableHlo.after hostOps0 (fun b => m (c, b)) (Proc.devRef .tc main_v2) = _
  after_results <;> rfl
theorem V_v3 (c : Dev nD) : (V m c main_v3 : S1x1.Idx → Elt Ideal .f32) = shapeCast S1x1 (m ((c : Thread nD τ).loc main_arg7)) shapeCasts_S1_S1x1 := by
  show StableHlo.after hostOps0 (fun b => m (c, b)) (Proc.devRef .tc main_v3) = _
  after_results <;> rfl
theorem V_v8 (c : Dev nD) : (V m c main_v8 : S256x1x1024.Idx → Elt Ideal .f32) = shapeCast S256x1x1024 (projHid m c) shapeCasts_S256x1024_S256x1x1024 := by
  show StableHlo.after hostOps0 (fun b => m (c, b)) (Proc.devRef .tc main_v8) = _
  after_results <;> rfl

/-! ## Where each window's block sits: the index maps over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

theorem point_lt (t : Fin cfg0.N) (j : Fin 4) : 4 * t.val + j.val < 256 := by
  have hN : cfg0.N = 64 := N_0
  have := t.isLt
  have := j.isLt
  omega

/-! ## The staged blocks, entry by entry, off the argument arrays -/

/-- Row j of point t's feature block is batch row 4t + j of the features. -/
theorem blk0_apply (c : Dev nD) (t : Fin cfg0.N) (j : Fin 4) (s : Fin 512) (e : Fin 1024) :
    (iblk m c 0 t : S4x512x1024.Idx → EReal) (ix3 j s e) = (m ((c : Thread nD τ).loc main_arg0)) (ix3 (⟨4 * t.val + j.val, point_lt t j⟩ : Fin 256) s e) := by
  obtain ⟨e0, e1, e2, -⟩ := idx_facts t
  unfold iblk
  rw [View.read_apply]
  show V m c main_arg0 (((cfg0.win 0).blk t).view.emb (ix3 j s e)) = _
  rw [V_main_arg0]
  refine congrArg _ (funext fun a => Fin.ext ?_)
  match a with
  | ⟨0, _⟩ => show win0_0.index t (0 : Fin 3) * 4 + 1 * j.val = 4 * t.val + j.val; omega
  | ⟨1, _⟩ => show win0_0.index t (1 : Fin 3) * 512 + 1 * s.val = s.val; omega
  | ⟨2, _⟩ => show win0_0.index t (2 : Fin 3) * 1024 + 1 * e.val = e.val; omega

/-- The staged projection is W1. -/
theorem blk1_apply (c : Dev nD) (t : Fin cfg0.N) (e : Fin 1024) (u : Fin 1024) :
    (iblk m c 1 t : S1024x1024.Idx → EReal) (ix2 e u) = (m ((c : Thread nD τ).loc main_arg2)) (ix2 e u) := by
  obtain ⟨-, -, -, e0, e1, -⟩ := idx_facts t
  unfold iblk
  rw [View.read_apply]
  show V m c main_v0 (((cfg0.win 1).blk t).view.emb (ix2 e u)) = _
  rw [V_v0, truncf_apply]
  refine congrArg _ (funext fun a => Fin.ext ?_)
  match a with
  | ⟨0, _⟩ => show win0_1.index t (0 : Fin 2) * 1024 + 1 * e.val = e.val; omega
  | ⟨1, _⟩ => show win0_1.index t (1 : Fin 2) * 1024 + 1 * u.val = u.val; omega

/-- The staged bias row is b1. -/
theorem blk2_apply (c : Dev nD) (t : Fin cfg0.N) (u : Fin 1024) :
    (iblk m c 2 t : S1x1024.Idx → EReal) (ix2 (0 : Fin 1) u) = (m ((c : Thread nD τ).loc main_arg3)) (ix1 u) := by
  obtain ⟨-, -, -, -, -, e0, e1, -⟩ := idx_facts t
  unfold iblk
  rw [View.read_apply]
  show V m c main_v2 (((cfg0.win 2).blk t).view.emb (ix2 (0 : Fin 1) u)) = _
  have hy : ((cfg0.win 2).blk t).view.emb (ix2 (0 : Fin 1) u) = ix2 (0 : Fin 1) u := funext fun a => Fin.ext (by
    match a with
    | ⟨0, _⟩ => show win0_2.index t (0 : Fin 2) * 1 + 1 * 0 = 0; omega
    | ⟨1, _⟩ => show win0_2.index t (1 : Fin 2) * 1024 + 1 * u.val = u.val; omega)
  rw [hy, V_v2]
  exact shapeCast_a_1a_apply _ _ (0 : Fin 1) u

/-- Row j of point t's hidden-state block is batch row 4t + j of the projected hidden state. -/
theorem blk3_apply (c : Dev nD) (t : Fin cfg0.N) (j : Fin 4) (u : Fin 1024) :
    (iblk m c 3 t : S4x1x1024.Idx → EReal) (ix3 j (0 : Fin 1) u) = projHid m c (ix2 (⟨4 * t.val + j.val, point_lt t j⟩ : Fin 256) u) := by
  obtain ⟨-, -, -, -, -, -, -, e0, e1, e2, -⟩ := idx_facts t
  unfold iblk
  rw [View.read_apply]
  show V m c main_v8 (((cfg0.win 3).blk t).view.emb (ix3 j (0 : Fin 1) u)) = _
  have hy : ((cfg0.win 3).blk t).view.emb (ix3 j (0 : Fin 1) u) = ix3 (⟨4 * t.val + j.val, point_lt t j⟩ : Fin 256) (0 : Fin 1) u := funext fun a => Fin.ext (by
    match a with
    | ⟨0, _⟩ => show win0_3.index t (0 : Fin 3) * 4 + 1 * j.val = 4 * t.val + j.val; omega
    | ⟨1, _⟩ => show win0_3.index t (1 : Fin 3) * 1 + 1 * 0 = 0; omega
    | ⟨2, _⟩ => show win0_3.index t (2 : Fin 3) * 1024 + 1 * u.val = u.val; omega)
  rw [hy, V_v8]
  refine shapeCast_apply _ _ _ _ ?_
  rw [Shape.rowMajor_val_three, Shape.rowMajor_val_two]
  show (4 * t.val + j.val) * 1024 + u.val = ((4 * t.val + j.val) * 1 + 0) * 1024 + u.val
  omega

/-- The staged scoring vector is Wv. -/
theorem blk4_apply (c : Dev nD) (t : Fin cfg0.N) (u : Fin 1024) :
    (iblk m c 4 t : S1024x1.Idx → EReal) (ix2 u (0 : Fin 1)) = (m ((c : Thread nD τ).loc main_arg6)) (ix2 u (0 : Fin 1)) := by
  obtain ⟨-, -, -, -, -, -, -, -, -, -, e0, e1, -⟩ := idx_facts t
  unfold iblk
  rw [View.read_apply]
  show V m c main_v1 (((cfg0.win 4).blk t).view.emb (ix2 u (0 : Fin 1))) = _
  rw [V_v1, truncf_apply]
  refine congrArg _ (funext fun a => Fin.ext ?_)
  match a with
  | ⟨0, _⟩ => show win0_4.index t (0 : Fin 2) * 1024 + 1 * u.val = u.val; omega
  | ⟨1, _⟩ => show win0_4.index t (1 : Fin 2) * 1 + 1 * 0 = 0; omega

/-- The staged scalar bias is bv. -/
theorem blk5_apply (c : Dev nD) (t : Fin cfg0.N) :
    (iblk m c 5 t : S1x1.Idx → EReal) (ix2 (0 : Fin 1) (0 : Fin 1)) = (m ((c : Thread nD τ).loc main_arg7)) (ix1 (0 : Fin 1)) := by
  obtain ⟨-, -, -, -, -, -, -, -, -, -, -, -, e0, e1, -⟩ := idx_facts t
  unfold iblk
  rw [View.read_apply]
  show V m c main_v3 (((cfg0.win 5).blk t).view.emb (ix2 (0 : Fin 1) (0 : Fin 1))) = _
  have hy : ((cfg0.win 5).blk t).view.emb (ix2 (0 : Fin 1) (0 : Fin 1)) = ix2 (0 : Fin 1) (0 : Fin 1) := funext fun a => Fin.ext (by
    match a with
    | ⟨0, _⟩ => show win0_5.index t (0 : Fin 2) * 1 + 1 * 0 = 0; omega
    | ⟨1, _⟩ => show win0_5.index t (1 : Fin 2) * 1 + 1 * 0 = 0; omega)
  rw [hy, V_v3]
  exact shapeCast_a_1a_apply _ _ (0 : Fin 1) (0 : Fin 1)

/-! ## The two output arrays -/

/-- The [256, 1, 1024] output array: (b, 0, u) ↦ batch row b's context vector at u. -/
def ctxArr (c : Dev nD) : S256x1x1024.Idx → EReal := fun i =>
  rowContext (m ((c : Thread nD τ).loc main_arg0)) (m ((c : Thread nD τ).loc main_arg2)) (m ((c : Thread nD τ).loc main_arg3)) (projHid m c) (m ((c : Thread nD τ).loc main_arg6)) (m ((c : Thread nD τ).loc main_arg7)) ⟨(i 0).val, (i 0).isLt⟩ ⟨(i 2).val, (i 2).isLt⟩

/-- What point t writes back is block t of that array: rows 4t … 4t + 3. -/
theorem flushed6_eq (c : Dev nD) (t : Fin cfg0.N) :
    (dats m 0 c).flushed 6 t = ((cfg0.win 6).blk t).view.read (Elt Ideal) (ctxArr m c) := by
  have hi := idx_facts t
  show (cfg0.win 6).cut (grid0.coords t) ((dats m 0 c).after 6 t) = _
  rw [after0_6]
  show (cfg0.win 6).cut (grid0.coords t) (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)) = _
  rw [out6_eq]
  funext y
  obtain ⟨j, z, u, rfl⟩ : ∃ (j : Fin 4) (z : Fin 1) (u : Fin 1024), y = ix3 j z u := ⟨y 0, y 1, y 2, eq_ix3 y⟩
  obtain rfl : z = 0 := Subsingleton.elim _ _
  have hy : ((cfg0.win 6).blk t).view.emb (ix3 j (0 : Fin 1) u) = ix3 (⟨4 * t.val + j.val, point_lt t j⟩ : Fin 256) (0 : Fin 1) u := funext fun a => Fin.ext (by
    match a with
    | ⟨0, _⟩ => show win0_6.index t (0 : Fin 3) * 4 + 1 * j.val = 4 * t.val + j.val; omega
    | ⟨1, _⟩ => show win0_6.index t (1 : Fin 3) * 1 + 1 * 0 = 0; omega
    | ⟨2, _⟩ => show win0_6.index t (2 : Fin 3) * 1024 + 1 * u.val = u.val; omega)
  show blockContext (iblk m c 0 t) (iblk m c 1 t) (iblk m c 2 t) (iblk m c 3 t) (iblk m c 4 t) (iblk m c 5 t) j u = ctxArr m c (((cfg0.win 6).blk t).view.emb (ix3 j (0 : Fin 1) u))
  rw [hy]
  exact blockContext_eq_row _ _ _ _ _ _ _ _ _ _ _ _ (⟨4 * t.val + j.val, point_lt t j⟩ : Fin 256) j
    (fun s e => blk0_apply m c t j s e) (fun e u => blk1_apply m c t e u) (fun u => blk2_apply m c t u)
    (fun u => blk3_apply m c t j u) (fun u => blk4_apply m c t u) (blk5_apply m c t) u

/-- An index of the array is in point t's block iff each coordinate is in the block's range on its axis. -/
theorem mem_blk6 (t : Fin cfg0.N) (i : S256x1x1024.Idx) :
    i ∈ ((cfg0.win 6).blk t).view.set ↔ ∀ a : Fin 3, win0_6.index t a * S4x1x1024.size a ≤ (i a).val ∧ (i a).val < win0_6.index t a * S4x1x1024.size a + S4x1x1024.size a := by
  show i ∈ ((View.whole main_v9_0).slice (win0_6.rect t)).set ↔ _
  rw [View.set_slice_whole, Rect.mem_set_unit]
  exact Iff.rfl

/-- Every index of the array is in the block of the point its batch row belongs to: row b is in block b / 4. -/
theorem cover6 (i : S256x1x1024.Idx) : ∃ t : Fin cfg0.N, (cfg0.win 6).flush t = true ∧ i ∈ ((cfg0.win 6).blk t).view.set := by
  have hN : cfg0.N = 64 := N_0
  have h0 : (i 0).val < 256 := (i 0).isLt
  have h1 : (i 1).val < 1 := (i 1).isLt
  have h2 : (i 2).val < 1024 := (i 2).isLt
  have ht : (i 0).val / 4 < cfg0.N := by omega
  obtain ⟨-, -, -, -, -, -, -, -, -, -, -, -, -, -, e0, e1, e2, -, -, -⟩ := idx_facts ⟨(i 0).val / 4, ht⟩
  have e0' : win0_6.index ⟨(i 0).val / 4, ht⟩ (0 : Fin 3) = (i 0).val / 4 := e0
  refine ⟨⟨(i 0).val / 4, ht⟩, flush0_6 _, ?_⟩
  rw [mem_blk6]
  intro a
  match a with
  | ⟨0, _⟩ => show win0_6.index ⟨(i 0).val / 4, ht⟩ (0 : Fin 3) * 4 ≤ (i 0).val ∧ (i 0).val < win0_6.index ⟨(i 0).val / 4, ht⟩ (0 : Fin 3) * 4 + 4; omega
  | ⟨1, _⟩ => show win0_6.index ⟨(i 0).val / 4, ht⟩ (1 : Fin 3) * 1 ≤ (i 1).val ∧ (i 1).val < win0_6.index ⟨(i 0).val / 4, ht⟩ (1 : Fin 3) * 1 + 1; omega
  | ⟨2, _⟩ => show win0_6.index ⟨(i 0).val / 4, ht⟩ (2 : Fin 3) * 1024 ≤ (i 2).val ∧ (i 2).val < win0_6.index ⟨(i 0).val / 4, ht⟩ (2 : Fin 3) * 1024 + 1024; omega

/-- So after the run the array holds it. -/
theorem final6 (c : Dev nD) : (dats m 0 c).arrAt 6 cfg0.N = ctxArr m c :=
  (dats m 0 c).arrAt_eq_of_cover 6 (ctxArr m c) (fun t _ => flushed6_eq m c t) (cover6)

/-- The [256, 1, 512] output array: (b, 0, s) ↦ batch row b's attention weight at position s. -/
def wgtArr (c : Dev nD) : S256x1x512.Idx → EReal := fun i =>
  rowWeight (m ((c : Thread nD τ).loc main_arg0)) (m ((c : Thread nD τ).loc main_arg2)) (m ((c : Thread nD τ).loc main_arg3)) (projHid m c) (m ((c : Thread nD τ).loc main_arg6)) (m ((c : Thread nD τ).loc main_arg7)) ⟨(i 0).val, (i 0).isLt⟩ ⟨(i 2).val, (i 2).isLt⟩

/-- What point t writes back is block t of that array: rows 4t … 4t + 3. -/
theorem flushed7_eq (c : Dev nD) (t : Fin cfg0.N) :
    (dats m 0 c).flushed 7 t = ((cfg0.win 7).blk t).view.read (Elt Ideal) (wgtArr m c) := by
  have hi := idx_facts t
  show (cfg0.win 7).cut (grid0.coords t) ((dats m 0 c).after 7 t) = _
  rw [after0_7]
  show (cfg0.win 7).cut (grid0.coords t) (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)) = _
  rw [out7_eq]
  funext y
  obtain ⟨j, z, s, rfl⟩ : ∃ (j : Fin 4) (z : Fin 1) (s : Fin 512), y = ix3 j z s := ⟨y 0, y 1, y 2, eq_ix3 y⟩
  obtain rfl : z = 0 := Subsingleton.elim _ _
  have hy : ((cfg0.win 7).blk t).view.emb (ix3 j (0 : Fin 1) s) = ix3 (⟨4 * t.val + j.val, point_lt t j⟩ : Fin 256) (0 : Fin 1) s := funext fun a => Fin.ext (by
    match a with
    | ⟨0, _⟩ => show win0_7.index t (0 : Fin 3) * 4 + 1 * j.val = 4 * t.val + j.val; omega
    | ⟨1, _⟩ => show win0_7.index t (1 : Fin 3) * 1 + 1 * 0 = 0; omega
    | ⟨2, _⟩ => show win0_7.index t (2 : Fin 3) * 512 + 1 * s.val = s.val; omega)
  show blockWeight (iblk m c 0 t) (iblk m c 1 t) (iblk m c 2 t) (iblk m c 3 t) (iblk m c 4 t) (iblk m c 5 t) j s = wgtArr m c (((cfg0.win 7).blk t).view.emb (ix3 j (0 : Fin 1) s))
  rw [hy]
  exact blockWeight_eq_row _ _ _ _ _ _ _ _ _ _ _ _ (⟨4 * t.val + j.val, point_lt t j⟩ : Fin 256) j
    (fun s e => blk0_apply m c t j s e) (fun e u => blk1_apply m c t e u) (fun u => blk2_apply m c t u)
    (fun u => blk3_apply m c t j u) (fun u => blk4_apply m c t u) (blk5_apply m c t) s

/-- An index of the array is in point t's block iff each coordinate is in the block's range on its axis. -/
theorem mem_blk7 (t : Fin cfg0.N) (i : S256x1x512.Idx) :
    i ∈ ((cfg0.win 7).blk t).view.set ↔ ∀ a : Fin 3, win0_7.index t a * S4x1x512.size a ≤ (i a).val ∧ (i a).val < win0_7.index t a * S4x1x512.size a + S4x1x512.size a := by
  show i ∈ ((View.whole main_v9_1).slice (win0_7.rect t)).set ↔ _
  rw [View.set_slice_whole, Rect.mem_set_unit]
  exact Iff.rfl

/-- Every index of the array is in the block of the point its batch row belongs to: row b is in block b / 4. -/
theorem cover7 (i : S256x1x512.Idx) : ∃ t : Fin cfg0.N, (cfg0.win 7).flush t = true ∧ i ∈ ((cfg0.win 7).blk t).view.set := by
  have hN : cfg0.N = 64 := N_0
  have h0 : (i 0).val < 256 := (i 0).isLt
  have h1 : (i 1).val < 1 := (i 1).isLt
  have h2 : (i 2).val < 512 := (i 2).isLt
  have ht : (i 0).val / 4 < cfg0.N := by omega
  obtain ⟨-, -, -, -, -, -, -, -, -, -, -, -, -, -, -, -, -, e0, e1, e2⟩ := idx_facts ⟨(i 0).val / 4, ht⟩
  have e0' : win0_7.index ⟨(i 0).val / 4, ht⟩ (0 : Fin 3) = (i 0).val / 4 := e0
  refine ⟨⟨(i 0).val / 4, ht⟩, flush0_7 _, ?_⟩
  rw [mem_blk7]
  intro a
  match a with
  | ⟨0, _⟩ => show win0_7.index ⟨(i 0).val / 4, ht⟩ (0 : Fin 3) * 4 ≤ (i 0).val ∧ (i 0).val < win0_7.index ⟨(i 0).val / 4, ht⟩ (0 : Fin 3) * 4 + 4; omega
  | ⟨1, _⟩ => show win0_7.index ⟨(i 0).val / 4, ht⟩ (1 : Fin 3) * 1 ≤ (i 1).val ∧ (i 1).val < win0_7.index ⟨(i 0).val / 4, ht⟩ (1 : Fin 3) * 1 + 1; omega
  | ⟨2, _⟩ => show win0_7.index ⟨(i 0).val / 4, ht⟩ (2 : Fin 3) * 512 ≤ (i 2).val ∧ (i 2).val < win0_7.index ⟨(i 0).val / 4, ht⟩ (2 : Fin 3) * 512 + 512; omega

/-- So after the run the array holds it. -/
theorem final7 (c : Dev nD) : (dats m 0 c).arrAt 7 cfg0.N = wgtArr m c :=
  (dats m 0 c).arrAt_eq_of_cover 7 (wgtArr m c) (fun t _ => flushed7_eq m c t) (cover7)

end Cert.KernelIdeal.Arrays

end
-- ==== Proof.KernelRun.lean ====
/-
  The kernel's run, read.

  After the launch the host drops the unit axis of the [256, 1, 1024] array — the first result, [256, 1024]: entry (b, u)
  is batch row b's context vector at u — and swaps the last two axes of the [256, 1, 512] array — the second result,
  [256, 512, 1]: entry (b, s, 0) is batch row b's attention weight at position s. Every weakly fair execution ends with
  the two results at these functions of the argument arrays, and with the argument arrays unchanged.
-/
import proofs.«171468_j33311766348358_2_alg».proof.Proof.Arrays

set_option maxRecDepth 16384

noncomputable section

namespace Cert.KernelIdeal.Run

open Cert.KernelIdeal Cert.KernelIdeal.Gen Cert.AdditiveAttention Cert.KernelIdeal.Arrays
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The first result: (b, u) ↦ batch row b's context vector at u. -/
def ctxOut (c : Dev nD) : S256x1024.Idx → EReal := fun i =>
  rowContext (m ((c : Thread nD τ).loc main_arg0)) (m ((c : Thread nD τ).loc main_arg2)) (m ((c : Thread nD τ).loc main_arg3)) (projHid m c) (m ((c : Thread nD τ).loc main_arg6)) (m ((c : Thread nD τ).loc main_arg7)) ⟨(i 0).val, (i 0).isLt⟩ ⟨(i 1).val, (i 1).isLt⟩

/-- The second result: (b, s, 0) ↦ batch row b's attention weight at position s. -/
def wgtOut (c : Dev nD) : S256x512x1.Idx → EReal := fun i =>
  rowWeight (m ((c : Thread nD τ).loc main_arg0)) (m ((c : Thread nD τ).loc main_arg2)) (m ((c : Thread nD τ).loc main_arg3)) (projHid m c) (m ((c : Thread nD τ).loc main_arg6)) (m ((c : Thread nD τ).loc main_arg7)) ⟨(i 0).val, (i 0).isLt⟩ ⟨(i 1).val, (i 1).isLt⟩

/-- The host's reshape after the launch reads the context array at (b, 0, u). -/
theorem tail10 (c : Dev nD) : Pipeline.afterTail₀ cfgs (dats m) 0 (V0 m) [hostOps1] c main_v10 = ctxOut m c := by
  have e : Pipeline.withArrays (cfgs 0).spec c (V0 m c) (fun w => (dats m 0 c).arrAt w (cfgs 0).N) (Proc.tc.devRef main_v9_0) = ctxArr m c :=
    (Pipeline.withArrays_arr spec0 launch0.win.arr_inj c _ _ 6).trans (final6 m c)
  unfold Pipeline.afterTail₀
  show StableHlo.after hostOps1 _ (Proc.devRef .tc main_v10) = _
  after_results
  rw [e]
  funext i
  obtain ⟨b, u, rfl⟩ : ∃ (b : Fin 256) (u : Fin 1024), i = ix2 b u := ⟨i 0, i 1, eq_ix2 i⟩
  show shapeCast S256x1024 (ctxArr m c) shapeCasts_S256x1x1024_S256x1024 (ix2 b u) = _
  refine (shapeCast_apply _ _ (ix2 b u) (ix3 b (0 : Fin 1) u) ?_).trans rfl
  rw [Shape.rowMajor_val_three, Shape.rowMajor_val_two]
  show (b.val * 1 + 0) * 1024 + u.val = b.val * 1024 + u.val
  omega

/-- The host's transpose after the launch reads the weights array at (b, 0, s). -/
theorem tail11 (c : Dev nD) : Pipeline.afterTail₀ cfgs (dats m) 0 (V0 m) [hostOps1] c main_v11 = wgtOut m c := by
  have e : Pipeline.withArrays (cfgs 0).spec c (V0 m c) (fun w => (dats m 0 c).arrAt w (cfgs 0).N) (Proc.tc.devRef main_v9_1) = wgtArr m c :=
    (Pipeline.withArrays_arr spec0 launch0.win.arr_inj c _ _ 7).trans (final7 m c)
  unfold Pipeline.afterTail₀
  show StableHlo.after hostOps1 _ (Proc.devRef .tc main_v11) = _
  after_results
  rw [e]
  funext i
  obtain ⟨b, s, z, rfl⟩ : ∃ (b : Fin 256) (s : Fin 512) (z : Fin 1), i = ix3 b s z := ⟨i 0, i 1, i 2, eq_ix3 i⟩
  obtain rfl : z = 0 := Subsingleton.elim _ _
  exact (transpose_ix3_021_apply (wgtArr m c) transposes_S256x1x512_S256x512x1_0_2_1 b s (0 : Fin 1)).trans rfl

/-- The run: both results at their functions of the arguments, the arguments unchanged. -/
theorem run : θ_run defs (onTc (τ := τ) (main (F := Ideal))) ⟨m, fun _ => 0, ρ⟩ (fun r => ∀ c : Dev nD,
      r.2.mem ((c.tc : Thread nD τ).loc main_v10) = ctxOut m c
      ∧ r.2.mem ((c.tc : Thread nD τ).loc main_v11) = wgtOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v10 (Pipeline.mem_restRefs_of main_v10 (by decide) (by decide))).trans (tail10 m c),
      ((h c).2 main_v11 (Pipeline.mem_restRefs_of main_v11 (by decide) (by decide))).trans (tail11 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KernelIdeal.Run

end
-- ==== Proof.lean ====
/-
  Additive (Bahdanau) attention: a tiled kernel against its jnp reference, over the extended reals.

  For every batch row b both programs compute
    projFeat[s, u] = (∑ e, features[b, s, e] · W1[e, u]) + b1[u]
    logit[s]       = (∑ u, tanh (projFeat[s, u] + (hidden · W2 + b2)[b, u]) · Wv[u]) + bv
    weight[s]      = exp (logit[s] - max logit) / ∑ s', exp (logit[s'] - max logit)
    context[u]     = ∑ s, weight[s] · projFeat[s, u]
  and return (context, weight). The kernel does it four batch rows per grid point, one row per trip of a loop, with
  its three contractions as matrix products into zero accumulators and its operands passed through a narrower float
  format; the reference does it on whole arrays with einsum, softmax and sum. Over the extended reals a change of
  float format is the identity, a product into a zero accumulator is the plain sum, both maxima are folds of max from
  -∞ (the reference takes one more maximum with -∞, which changes nothing), and a sum from 0 is the sum; every sum
  and product is grouped the same way on both sides, so the two results are equal term by term and the finiteness of
  the inputs is never used.

  Spec states the per-row terms; RefSide reads the reference's operations at an index and finds them; Payload reads
  the kernel body's arithmetic for one row at an index and finds them; Stored shows each of the body's stores is a row
  of one function of the block index, so the output blocks hold that function; Arrays carries the staged blocks back
  to the argument arrays and tiles the output arrays with the 64 blocks; KernelRun reads the two host operations after
  the launch. Here the two runs are put side by side. The kernel's idealization rewrote nothing, so that conjunct is
  trivial; the three frames are the generated ones (the reference's is its generated run with the results dropped).
-/
import proofs.«171468_j33311766348358_2_alg».proof.Defs
import proofs.«171468_j33311766348358_2_alg».proof.Proof.Gen.Kernel
import proofs.«171468_j33311766348358_2_alg».proof.Proof.Gen.Kernel.Skeleton
import proofs.«171468_j33311766348358_2_alg».proof.Proof.Gen.Kernel.Loops
import proofs.«171468_j33311766348358_2_alg».proof.Proof.Gen.Kernel.Launch
import proofs.«171468_j33311766348358_2_alg».proof.Proof.Gen.Kernel.Points
import proofs.«171468_j33311766348358_2_alg».proof.Proof.Gen.Kernel.Frame
import proofs.«171468_j33311766348358_2_alg».proof.Proof.Gen.KernelIdeal
import proofs.«171468_j33311766348358_2_alg».proof.Proof.Gen.KernelIdeal.Skeleton
import proofs.«171468_j33311766348358_2_alg».proof.Proof.Gen.KernelIdeal.Loops
import proofs.«171468_j33311766348358_2_alg».proof.Proof.Gen.KernelIdeal.Launch
import proofs.«171468_j33311766348358_2_alg».proof.Proof.Gen.KernelIdeal.Points
import proofs.«171468_j33311766348358_2_alg».proof.Proof.Gen.KernelIdeal.Frame
import proofs.«171468_j33311766348358_2_alg».proof.Proof.Gen.ReferenceIdeal
import proofs.«171468_j33311766348358_2_alg».proof.Proof.Gen.ReferenceIdeal.Run
import proofs.«171468_j33311766348358_2_alg».proof.Proof.Gen.ReferenceIdeal.Read
import proofs.«171468_j33311766348358_2_alg».proof.Proof.Gen.Pre_finite_inputs
import proofs.«171468_j33311766348358_2_alg».proof.Proof.RefSide
import proofs.«171468_j33311766348358_2_alg».proof.Proof.KernelRun
import Idealize.ShloMosaic.Adequacy
import Idealize.ShloMosaic.Init

noncomputable section

namespace Cert.Proof

open Idealize.ShloMosaic Idealize.SL.Sem Idealize.ShloMosaic.ValueIdx

/-- The reference's frame: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Run from memories that agree on the eight arguments, the kernel ends with its two results at every batch row's
    context vector and attention weights, and the reference with its two results at the same terms of the same arrays. -/
theorem algebraic : Cert.algebraic_KernelIdeal_ReferenceIdeal := by
  intro m ρ m' ρ' _ hagree
  refine ⟨fun c => Cert.KernelIdeal.Run.ctxOut m c, fun c => Cert.KernelIdeal.Run.wgtOut m c, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v29_eq, h0, h1, h2, h3, h4, h5, h6, h7]
    funext i
    obtain ⟨b, u, rfl⟩ : ∃ (b : Fin 256) (u : Fin 1024), i = ix2 b u := ⟨i 0, i 1, eq_ix2 i⟩
    exact (Cert.ReferenceIdeal.RefSide.context_apply _ _ _ _ _ _ _ _ b u).trans rfl
  · obtain ⟨h0, h1, h2, h3, h4, h5, h6, h7⟩ := hagree c
    rw [Cert.ReferenceIdeal.Read.val_main_v26_eq, h0, h1, h2, h3, h4, h5, h6, h7]
    funext i
    obtain ⟨b, s, z, rfl⟩ : ∃ (b : Fin 256) (s : Fin 512) (z : Fin 1), i = ix3 b s z := ⟨i 0, i 1, i 2, eq_ix3 i⟩
    obtain rfl : z = 0 := Subsingleton.elim _ _
    exact (Cert.ReferenceIdeal.RefSide.weight_apply _ _ _ _ _ _ _ _ b s).trans rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
